-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x16 : Shape := ⟨3, ![2, 8192, 16]⟩
abbrev S2x8192x8192 : Shape := ⟨3, ![2, 8192, 8192]⟩
abbrev S_ : Shape := ⟨0, ![]⟩
abbrev S2x8192 : Shape := ⟨2, ![2, 8192]⟩

class Facts : Prop where
  bcast_S_S2x8192x16 : S_.BroadcastsInDim S2x8192x16 (![] : Fin 0 → Fin S2x8192x16.rank)
  reducesTo_S2x8192x16_S_d0_1_2 : S2x8192x16.ReducesTo [0, 1, 2] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_
  reducesTo_S2x8192x8192_S2x8192_d1 : S2x8192x8192.ReducesTo [1] S2x8192
  bcast_S_S2x8192 : S_.BroadcastsInDim S2x8192 (![] : Fin 0 → Fin S2x8192.rank)
  reducesTo_S2x8192_S_d0_1 : S2x8192.ReducesTo [0, 1] S_
  reducesTo_S2x8192x8192_S2x8192_d2 : S2x8192x8192.ReducesTo [2] S2x8192

variable [Facts]

def fn_part1 {F : FTy → Type} [FloatOps F] (main_v13 : IVec S_ 1) (main_v14 : FVec F S2x8192 .f32) (main_cst_6 : FVec F S_ .f32) : IVec S_ 1 :=
  let main_v15 : FVec F S2x8192 .f32 := broadcastInDim S2x8192 ![] bcast_S_S2x8192 main_cst_6
  let main_v16 : IVec S2x8192 1 := cmpf .une main_v14 main_v15
  let main_c_7 : IVec S_ 1 := constantI S_ 1 1#1
  let main_v17 : IVec S_ 1 := (fun x v => Host.reduce IntOp.andi x v reducesTo_S2x8192_S_d0_1 h_S_) main_v16 main_c_7
  let main_v18 : IVec S_ 1 := andi main_v13 main_v17
  main_v18

def fn {F : FTy → Type} [FloatOps F] (main_arg0 : FVec F S2x8192x16 .f32) (main_arg1 : FVec F S2x8192x8192 .f32) : IVec S_ 1 :=
  let main_v0 : FVec F S2x8192x16 .f32 := Host.absf main_arg0
  let main_cst : FVec F S_ .f32 := constant S_ .f32 0x7F800000#32
  let main_v1 : FVec F S2x8192x16 .f32 := broadcastInDim S2x8192x16 ![] bcast_S_S2x8192x16 main_cst
  let main_v2 : IVec S2x8192x16 1 := cmpf .olt main_v0 main_v1
  let main_c : IVec S_ 1 := constantI S_ 1 1#1
  let main_v3 : IVec S_ 1 := (fun x v => Host.reduce IntOp.andi x v reducesTo_S2x8192x16_S_d0_1_2 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  let main_cst_2 : FVec F S_ .f32 := constant S_ .f32 0x00000000#32
  let main_v9 : FVec F S2x8192 .f32 := (fun x v => Host.reduceAdd x v reducesTo_S2x8192x8192_S2x8192_d1 h_S_) main_arg1 main_cst_2
  let main_cst_3 : FVec F S_ .f32 := constant S_ .f32 0x00000000#32
  let main_v10 : FVec F S2x8192 .f32 := broadcastInDim S2x8192 ![] bcast_S_S2x8192 main_cst_3
  let main_v11 : IVec S2x8192 1 := cmpf .une main_v9 main_v10
  let main_c_4 : IVec S_ 1 := constantI S_ 1 1#1
  let main_v12 : IVec S_ 1 := (fun x v => Host.reduce IntOp.andi x v reducesTo_S2x8192_S_d0_1 h_S_) main_v11 main_c_4
  let main_v13 : IVec S_ 1 := andi main_v8 main_v12
  let main_cst_5 : FVec F S_ .f32 := constant S_ .f32 0x00000000#32
  let main_v14 : FVec F S2x8192 .f32 := (fun x v => Host.reduceAdd x v reducesTo_S2x8192x8192_S2x8192_d2 h_S_) main_arg1 main_cst_5
  let main_cst_6 : FVec F S_ .f32 := constant S_ .f32 0x00000000#32
  fn_part1 (F := F) main_v13 main_v14 main_cst_6
-- ==== Kernel.lean ====
abbrev S2x8192x16 : Shape := ⟨3, ![2, 8192, 16]⟩
abbrev S2x8192x8192 : Shape := ⟨3, ![2, 8192, 8192]⟩
abbrev S2x1024x16 : Shape := ⟨3, ![2, 1024, 16]⟩
abbrev S2x1024x1024 : Shape := ⟨3, ![2, 1024, 1024]⟩
abbrev S2x1024 : Shape := ⟨2, ![2, 1024]⟩
abbrev S2x1024x1 : Shape := ⟨3, ![2, 1024, 1]⟩

abbrev nBuf : Space → Nat
  | .hbm => 4
  | .vmem => 16
  | .smem => 0
  | _ => 0

abbrev bufTy : (tb : Table) → Fin (tcTables nBuf tb) → BufTy
  | .hbm, ⟨0, _⟩ => ⟨S2x8192x16, .f32⟩
  | .hbm, ⟨1, _⟩ => ⟨S2x8192x8192, .f32⟩
  | .hbm, ⟨2, _⟩ => ⟨S2x8192x16, .f32⟩
  | .hbm, ⟨3, _⟩ => ⟨S2x8192x16, .f32⟩
  | .local _ .vmem, ⟨0, _⟩ => ⟨S2x1024x16, .f32⟩
  | .local _ .vmem, ⟨1, _⟩ => ⟨S2x1024x16, .f32⟩
  | .local _ .vmem, ⟨2, _⟩ => ⟨S2x1024x1024, .f32⟩
  | .local _ .vmem, ⟨3, _⟩ => ⟨S2x1024x1024, .f32⟩
  | .local _ .vmem, ⟨4, _⟩ => ⟨S2x1024x16, .f32⟩
  | .local _ .vmem, ⟨5, _⟩ => ⟨S2x1024x16, .f32⟩
  | .local _ .vmem, ⟨6, _⟩ => ⟨S2x1024x16, .f32⟩
  | .local _ .vmem, ⟨7, _⟩ => ⟨S2x1024, .f32⟩
  | .local _ .vmem, ⟨8, _⟩ => ⟨S2x1024x1024, .f32⟩
  | .local _ .vmem, ⟨9, _⟩ => ⟨S2x1024x1024, .f32⟩
  | .local _ .vmem, ⟨10, _⟩ => ⟨S2x1024x16, .f32⟩
  | .local _ .vmem, ⟨11, _⟩ => ⟨S2x1024x16, .f32⟩
  | .local _ .vmem, ⟨12, _⟩ => ⟨S2x1024x16, .f32⟩
  | .local _ .vmem, ⟨13, _⟩ => ⟨S2x1024x16, .f32⟩
  | .local _ .vmem, ⟨14, _⟩ => ⟨S2x1024x16, .f32⟩
  | .local _ .vmem, ⟨15, _⟩ => ⟨S2x1024, .f32⟩
  | _, _ => ⟨S2x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_17 : BitVec 32 := 0#32
  let v22 : BitVec 1 := Scalar.cmpi .ne v21 c0_i32_17
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2x1024x16_S2x1024x16_0_0_0 : ∀ a, (![0, 0, 0] : Fin 3 → Nat) a + S2x1024x16.size a ≤ S2x1024x16.size a
  h_S2x1024x16 : 0 < S2x1024x16.numel
  shapeCasts_S2x1024x16_S2x1024x16 : S2x1024x16.ShapeCasts S2x1024x16
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x1024x1024_S2x1024x1024_0_0_0 : ∀ a, (![0, 0, 0] : Fin 3 → Nat) a + S2x1024x1024.size a ≤ S2x1024x1024.size a
  h_S2x1024x1024 : 0 < S2x1024x1024.numel
  bitsLt_bf16_f32 : FTy.bits .bf16 < FTy.bits .f32
  reduces_S2x1024x1024_S2x1024 : S2x1024x1024.Reduces [1] S2x1024
  shapeCasts_S2x1024_S2x1024x1 : S2x1024.ShapeCasts S2x1024x1
  broadcasts_S2x1024x1_S2x1024x16 : S2x1024x1.Broadcasts S2x1024x16
  reduces_S2x1024x1024_S2x1024_2 : S2x1024x1024.Reduces [2] S2x1024
  dot_S2x1024x1024_S2x1024x16_S2x1024x16_1_1_2_2_0_0_wf : DotDims.WF S2x1024x1024 S2x1024x16 S2x1024x16 [1] [1] [2] [2] [0] [0]
  dot_S2x1024x1024_S2x1024x16_S2x1024x16_2_1_1_2_0_0_wf : DotDims.WF S2x1024x1024 S2x1024x16 S2x1024x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x16.size a ≤ S2x8192x16.size a
  hwx0_0 : ∀ i : grid0.Coords, EltTy.bits .f32 = 32 ∨ (Rect.block (s := S2x8192x16) S2x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S2x8192x8192.size a
  hwx0_1 : ∀ i : grid0.Coords, EltTy.bits .f32 = 32 ∨ (Rect.block (s := S2x8192x8192) S2x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x16.size a ≤ S2x8192x16.size a
  hwx0_2 : ∀ i : grid0.Coords, EltTy.bits .f32 = 32 ∨ (Rect.block (s := S2x8192x16) S2x1024x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x1024.size a ≤ S2x8192x8192.size a
  hwx1_0 : ∀ i : grid1.Coords, EltTy.bits .f32 = 32 ∨ (Rect.block (s := S2x8192x8192) S2x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1024x16.size a ≤ S2x8192x16.size a
  hwx1_1 : ∀ i : grid1.Coords, EltTy.bits .f32 = 32 ∨ (Rect.block (s := S2x8192x16) S2x1024x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1024x16.size a ≤ S2x8192x16.size a
  hwx1_2 : ∀ i : grid1.Coords, EltTy.bits .f32 = 32 ∨ (Rect.block (s := S2x8192x16) S2x1024x16.size (cc1_transform_2 i) (hinb1_2 i)).WholeWords (EltTy.packing .f32)

variable [Facts₀]

def dot_S2x1024x1024_S2x1024x16_S2x1024x16_1_1_2_2_0_0 : DotDims S2x1024x1024 S2x1024x16 S2x1024x16 where
  lhsContracting := [1]
  rhsContracting := [1]
  lhsNonContracting := [2]
  rhsNonContracting := [2]
  lhsBatch := [0]
  rhsBatch := [0]
  wf := dot_S2x1024x1024_S2x1024x16_S2x1024x16_1_1_2_2_0_0_wf
def dot_S2x1024x1024_S2x1024x16_S2x1024x16_2_1_1_2_0_0 : DotDims S2x1024x1024 S2x1024x16 S2x1024x16 where
  lhsContracting := [2]
  rhsContracting := [1]
  lhsNonContracting := [1]
  rhsNonContracting := [2]
  lhsBatch := [0]
  rhsBatch := [0]
  wf := dot_S2x1024x1024_S2x1024x16_S2x1024x16_2_1_1_2_0_0_wf

abbrev win0_0 : Pipeline.Window sig grid0 :=
  Pipeline.Window.ofSpec (Memref.whole main_arg0) S2x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x1024x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2x1024x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x8192x16 : Shape := ⟨3, ![2, 8192, 16]⟩
abbrev S2x8192x8192 : Shape := ⟨3, ![2, 8192, 8192]⟩
abbrev S_ : Shape := ⟨0, ![]⟩
abbrev S2x8192 : Shape := ⟨2, ![2, 8192]⟩
abbrev S2x1x8192 : Shape := ⟨3, ![2, 1, 8192]⟩
abbrev S2x8192x1 : Shape := ⟨3, ![2, 8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x16, .f32⟩
  | .hbm, ⟨1, _⟩ => ⟨S2x8192x8192, .f32⟩
  | .hbm, ⟨2, _⟩ => ⟨S_, .f32⟩
  | .hbm, ⟨3, _⟩ => ⟨S2x8192, .f32⟩
  | .hbm, ⟨4, _⟩ => ⟨S_, .f32⟩
  | .hbm, ⟨5, _⟩ => ⟨S2x8192, .f32⟩
  | .hbm, ⟨6, _⟩ => ⟨S2x1x8192, .f32⟩
  | .hbm, ⟨7, _⟩ => ⟨S2x8192x8192, .f32⟩
  | .hbm, ⟨8, _⟩ => ⟨S2x8192x8192, .f32⟩
  | .hbm, ⟨9, _⟩ => ⟨S2x8192x1, .f32⟩
  | .hbm, ⟨10, _⟩ => ⟨S2x8192x8192, .f32⟩
  | .hbm, ⟨11, _⟩ => ⟨S2x8192x8192, .f32⟩
  | .hbm, ⟨12, _⟩ => ⟨S2x8192x16, .f32⟩
  | .hbm, ⟨13, _⟩ => ⟨S2x8192x16, .f32⟩
  | _, _ => ⟨S2x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S2x8192x8192_S2x8192_d2 : S2x8192x8192.ReducesTo [2] S2x8192
  h_S_ : 0 < S_.numel
  reducesTo_S2x8192x8192_S2x8192_d1 : S2x8192x8192.ReducesTo [1] S2x8192
  bcast_S2x8192_S2x1x8192_0_2 : S2x8192.BroadcastsInDim S2x1x8192 (![0, 2] : Fin 2 → Fin S2x1x8192.rank)
  bcast_S2x1x8192_S2x8192x8192_0_1_2 : S2x1x8192.BroadcastsInDim S2x8192x8192 (![0, 1, 2] : Fin 3 → Fin S2x8192x8192.rank)
  bcast_S2x8192_S2x8192x1_0_1 : S2x8192.BroadcastsInDim S2x8192x1 (![0, 1] : Fin 2 → Fin S2x8192x1.rank)
  bcast_S2x8192x1_S2x8192x8192_0_1_2 : S2x8192x1.BroadcastsInDim S2x8192x8192 (![0, 1, 2] : Fin 3 → Fin S2x8192x8192.rank)
  dot_S2x8192x8192_S2x8192x16_S2x8192x16_1_1_2_2_0_0_wf : DotDims.WF S2x8192x8192 S2x8192x16 S2x8192x16 [1] [1] [2] [2] [0] [0]
  dot_S2x8192x8192_S2x8192x16_S2x8192x16_2_1_1_2_0_0_wf : DotDims.WF S2x8192x8192 S2x8192x16 S2x8192x16 [2] [1] [1] [2] [0] [0]

variable [Facts₀]

def dot_S2x8192x8192_S2x8192x16_S2x8192x16_1_1_2_2_0_0 : DotDims S2x8192x8192 S2x8192x16 S2x8192x16 where
  lhsContracting := [1]
  rhsContracting := [1]
  lhsNonContracting := [2]
  rhsNonContracting := [2]
  lhsBatch := [0]
  rhsBatch := [0]
  wf := dot_S2x8192x8192_S2x8192x16_S2x8192x16_1_1_2_2_0_0_wf
def dot_S2x8192x8192_S2x8192x16_S2x8192x16_2_1_1_2_0_0 : DotDims S2x8192x8192 S2x8192x16 S2x8192x16 where
  lhsContracting := [2]
  rhsContracting := [1]
  lhsNonContracting := [1]
  rhsNonContracting := [2]
  lhsBatch := [0]
  rhsBatch := [0]
  wf := dot_S2x8192x8192_S2x8192x16_S2x8192x16_2_1_1_2_0_0_wf

class Facts : Prop extends Facts₀ where

variable [Facts]
-- ==== Proof.KBody0.lean ====
/-
  The body of the first kernel (vertices → hyperedges) at one grid point, as a triple.

  The body keeps two accumulators between the points of one output tile: a feature accumulator [2,1024,16] and a
  degree accumulator [2,1024]. At a point it (1) zeroes both when the reduction tile is the first, (2) adds to the
  first the product of the H block with the feature block (contracted over the reduction axis) and to the second
  the H block's sums over that axis, (3) when the reduction tile is the last, stores the quotient of the two into
  the output block. Stated once for every point: what each accumulator and the output block hold afterwards is a
  function (acc5, acc6, out4) of the point, the two input blocks and what the three buffers held before.
-/
import proofs.«135059_j24292335026751_1_alg».proof.Proof.Gen.Kernel.Launch
import proofs.«135059_j24292335026751_1_alg».proof.Proof.Gen.Kernel.Skeleton
import proofs.«135059_j24292335026751_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction tile is the first (the kernel's own test, on the second grid coordinate). -/
abbrev cond0_0 (i : grid0.Coords) : Prop := (Scalar.cmpi .ne (Scalar.extui (Scalar.cmpi .eq (BitVec.ofNat 32 (i 1).val) 0#32)) 0#32) = 1#1
/-- The reduction tile is the last. -/
abbrev cond0_1 (i : grid0.Coords) : Prop := k0_cond2 i = 1#1

theorem hz3 : (![0, 0, 0] : Fin 3 → Nat) = fun _ => 0 := by funext a; fin_cases a <;> rfl
theorem hz2 : (![0, 0] : Fin 2 → Nat) = fun _ => 0 := by funext a; fin_cases a <;> rfl

/-- A whole-buffer load after stores the last of which was a whole-buffer store reads that store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-- After stores the last of which was a whole-buffer store the buffer reads that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A whole-buffer load of untouched contents reads them. -/
theorem readAt_whole {Val : EltTy → Type} {S : Shape} {e : EltTy} {sig' : RefSig} {κ : Kind} {sp : Space}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  rw [View.readAt_eq_ld, View.ld_unit_zero h]

/-- What the feature accumulator holds after the body: the product of the blocks added to zero (first reduction tile) or to what it held. -/
def acc5_0 (i : grid0.Coords) (x : Vec F S2x1024x16 .f32) (h : Vec F S2x1024x1024 .f32) (s5 : Vec F S2x1024x16 .f32) : Vec F S2x1024x16 .f32 :=
  k0_pay3 h x (if cond0_0 i then (k0_pay1 (F := F) : Vec F S2x1024x16 .f32) else s5)
/-- What the degree accumulator holds after the body. -/
def acc6_0 (i : grid0.Coords) (h : Vec F S2x1024x1024 .f32) (s6 : Vec F S2x1024 .f32) : Vec F S2x1024 .f32 :=
  k0_pay4 h (if cond0_0 i then (k0_pay2 (F := F) : Vec F S2x1024 .f32) else s6)
/-- What the output block holds after the body: the quotient at the last reduction tile, else what it held. -/
def out4_0 (i : grid0.Coords) (x : Vec F S2x1024x16 .f32) (h : Vec F S2x1024x1024 .f32) (d : Vec F S2x1024x16 .f32) (s5 : Vec F S2x1024x16 .f32) (s6 : Vec F S2x1024 .f32) : Vec F S2x1024x16 .f32 :=
  if cond0_1 i then (k0_pay5 (acc5_0 i x h s5) (acc6_0 i h s6) : Vec F S2x1024x16 .f32) else d

set_option maxHeartbeats 4000000 in
/-- The body when the v-tile test is taken and the last-tile test is taken. -/
theorem sound_k0_first_last (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond0_0 i) (hc1 : cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (k0_pay5 (k0_pay3 h x (k0_pay1 (F := F) : Vec F S2x1024x16 .f32)) (k0_pay4 h (k0_pay2 (F := F) : Vec F S2x1024 .f32)))
            ∗ owns (c : Thread nD τ) arg5 fullShare (k0_pay3 h x (k0_pay1 (F := F) : Vec F S2x1024x16 .f32)) ∗ owns (c : Thread nD τ) arg6 fullShare (k0_pay4 h (k0_pay2 (F := F) : Vec F S2x1024 .f32))) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is taken and the last-tile test is not taken. -/
theorem sound_k0_first (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond0_0 i) (hc1 : ¬cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare d
            ∗ owns (c : Thread nD τ) arg5 fullShare (k0_pay3 h x (k0_pay1 (F := F) : Vec F S2x1024x16 .f32)) ∗ owns (c : Thread nD τ) arg6 fullShare (k0_pay4 h (k0_pay2 (F := F) : Vec F S2x1024 .f32))) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is taken. -/
theorem sound_k0_last (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond0_0 i) (hc1 : cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (k0_pay5 (k0_pay3 h x s5) (k0_pay4 h s6))
            ∗ owns (c : Thread nD τ) arg5 fullShare (k0_pay3 h x s5) ∗ owns (c : Thread nD τ) arg6 fullShare (k0_pay4 h s6)) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is not taken. -/
theorem sound_k0_mid (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond0_0 i) (hc1 : ¬cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare d
            ∗ owns (c : Thread nD τ) arg5 fullShare (k0_pay3 h x s5) ∗ owns (c : Thread nD τ) arg6 fullShare (k0_pay4 h s6)) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

/-- The body on whole memrefs holding the blocks x, h, the output block d and the accumulators s5, s6 runs to the
    continuation with the inputs as they were and the output block and the accumulators at out4, acc5, acc6. -/
theorem sound_kernel0 (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (out4_0 i x h d s5 s6)
            ∗ owns (c : Thread nD τ) arg5 fullShare (acc5_0 i x h s5) ∗ owns (c : Thread nD τ) arg6 fullShare (acc6_0 i h s6)) -∗ K ⟨⟩))
      ⊢ wp frame (wpE (defs₀ (F := F)) Variants.none c none) E (cc0__kernel1 i arg2 harg2 arg3 harg3 arg4 harg4 arg5 harg5 arg6 harg6) K := by
  by_cases hc0 : cond0_0 i
  · by_cases hc1 : cond0_1 i
    · unfold out4_0 acc5_0 acc6_0
      simp only [if_pos hc0, if_pos hc1]
      exact sound_k0_first_last c E i arg2 harg2 arg3 harg3 arg4 harg4 arg5 harg5 arg6 harg6 hc0 hc1 x h d s5 s6 K
    · unfold out4_0 acc5_0 acc6_0
      simp only [if_pos hc0, if_neg hc1]
      exact sound_k0_first c E i arg2 harg2 arg3 harg3 arg4 harg4 arg5 harg5 arg6 harg6 hc0 hc1 x h d s5 s6 K
  · by_cases hc1 : cond0_1 i
    · unfold out4_0 acc5_0 acc6_0
      simp only [if_neg hc0, if_pos hc1]
      exact sound_k0_last c E i arg2 harg2 arg3 harg3 arg4 harg4 arg5 harg5 arg6 harg6 hc0 hc1 x h d s5 s6 K
    · unfold out4_0 acc5_0 acc6_0
      simp only [if_neg hc0, if_neg hc1]
      exact sound_k0_mid c E i arg2 harg2 arg3 harg3 arg4 harg4 arg5 harg5 arg6 harg6 hc0 hc1 x h d s5 s6 K

end Cert.Kernel.Frame
end
-- ==== Proof.KRegion0.lean ====
/-
  The first kernel (vertices → hyperedges) over its whole grid: what the accumulators hold after every point, the region's
  invariant, the proof data of the pipeline and the body obligation at every point.

  The grid is 8 output tiles × 8 reduction tiles, visited in row-major order, so position n is reduction tile n mod 8
  of output tile n div 8. After position n the accumulators hold the running sums of the current output tile
  (accAt): they restart at every position ≡ 0 (mod 8), and at the positions ≡ 7 (mod 8) the output block holds
  their quotient and is written back; at the other positions the output block is left as found.
-/
import proofs.«135059_j24292335026751_1_alg».proof.Proof.KBody0

set_option maxRecDepth 16384

noncomputable section

namespace Cert.Kernel.Frame
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first-tile test holds exactly at the positions ≡ 0 (mod 8), the last-tile test at those ≡ 7 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)
/-- The input windows are never idle; the output window is idle, and not written back, exactly off the last reduction tile. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem live0_2 : ∀ t : Fin cfg0.N, cond0_1 (grid0.coords t) → cfg0.idle 2 (grid0.coords t) = false := by decide +kernel

/-- Position n as a point of the grid (taken mod 64, so that it is one for every n). -/
def pt0 (n : ℕ) : Fin cfg0.N := ⟨n % 64, lt_of_lt_of_eq (Nat.mod_lt _ (by decide)) (show (64 : ℕ) = cfg0.N from N_0.symm)⟩
theorem pt0_val (t : Fin cfg0.N) : pt0 t.val = t :=
  Fin.ext (Nat.mod_eq_of_lt (lt_of_lt_of_eq t.isLt (show cfg0.N = 64 from N_0)))

/-- One point's effect on the two accumulators. -/
def stepAt0 (c : Dev nD) (t : Fin cfg0.N) (s : Vec F S2x1024x16 .f32 × Vec F S2x1024 .f32) : Vec F S2x1024x16 .f32 × Vec F S2x1024 .f32 :=
  (acc5_0 (grid0.coords t) (iblk0 V c 0 t) (iblk0 V c 1 t) s.1, acc6_0 (grid0.coords t) (iblk0 V c 1 t) s.2)

/-- The two accumulators after position n: the points' effects composed from zero. -/
def accAt0 (c : Dev nD) : ℕ → Vec F S2x1024x16 .f32 × Vec F S2x1024 .f32
  | 0 => stepAt0 V c (pt0 0) ((k0_pay1 (F := F) : Vec F S2x1024x16 .f32), (k0_pay2 (F := F) : Vec F S2x1024 .f32))
  | n + 1 => stepAt0 V c (pt0 (n + 1)) (accAt0 c n)

/-- A point run on what the point before left (on anything, at the first point) leaves the accumulators of its position. -/
theorem acc_step0 (c : Dev nD) (t : Fin cfg0.N) (s5 : Vec F S2x1024x16 .f32) (s6 : Vec F S2x1024 .f32)
    (hs : t.val ≠ 0 → (s5, s6) = accAt0 V c (t.val - 1)) : stepAt0 V c t (s5, s6) = accAt0 V c t.val := by
  obtain ⟨n, hn⟩ := t
  cases n with
  | zero =>
    have hp : pt0 0 = ⟨0, hn⟩ := Fin.ext rfl
    have h0 : cond0_0 (grid0.coords ⟨0, hn⟩) := (hcond0_0 ⟨0, hn⟩).mpr rfl
    show stepAt0 V c ⟨0, hn⟩ (s5, s6) = stepAt0 V c (pt0 0) (_, _)
    rw [hp]; unfold stepAt0 acc5_0 acc6_0
    simp only [if_pos h0]
  | succ n =>
    have hs' : (s5, s6) = accAt0 V c n := hs (Nat.succ_ne_zero n)
    show stepAt0 V c ⟨n + 1, hn⟩ (s5, s6) = stepAt0 V c (pt0 (n + 1)) (accAt0 V c n)
    rw [← hs', show pt0 (n + 1) = ⟨n + 1, hn⟩ from pt0_val ⟨n + 1, hn⟩]

/-! ## The scratch buffers and the region's invariant -/

/-- The two accumulators' memrefs: whole scratch buffers. -/
abbrev sc5_0 : Memref sig .tc .vmem S2x1024x16 .f32 := Memref.whole cc0_scratch0
abbrev sc6_0 : Memref sig .tc .vmem S2x1024 .f32 := Memref.whole cc0_scratch1

/-- A whole scratch buffer owned through its memref is its points-to, both ways. -/
theorem own_of_pt5_0 (c : Dev nD) (f : Buf (Elt F) ((c : Thread nD τ).loc cc0_scratch0)) :
    (((c : Thread nD τ).loc cc0_scratch0) ↦{fullShare} f : sProp 𝕄) ⊢ owns (c : Thread nD τ) sc5_0 fullShare f := by
  rw [owns_whole]
theorem pt_of_own5_0 (c : Dev nD) (f : Buf (Elt F) ((c : Thread nD τ).loc cc0_scratch0)) :
    (owns (c : Thread nD τ) sc5_0 fullShare f : sProp 𝕄) ⊢ ((c : Thread nD τ).loc cc0_scratch0) ↦{fullShare} f := by
  rw [owns_whole]
theorem own_of_pt6_0 (c : Dev nD) (f : Buf (Elt F) ((c : Thread nD τ).loc cc0_scratch1)) :
    (((c : Thread nD τ).loc cc0_scratch1) ↦{fullShare} f : sProp 𝕄) ⊢ owns (c : Thread nD τ) sc6_0 fullShare f := by
  rw [owns_whole]
theorem pt_of_own6_0 (c : Dev nD) (f : Buf (Elt F) ((c : Thread nD τ).loc cc0_scratch1)) :
    (owns (c : Thread nD τ) sc6_0 fullShare f : sProp 𝕄) ⊢ ((c : Thread nD τ).loc cc0_scratch1) ↦{fullShare} f := by
  rw [owns_whole]

/-- The core's scoped buffers that are neither a staging buffer of this region nor one of its accumulators, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers outside the region's staging: the two accumulators, then the rest. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Rest0 (F := F) c) :=
  Pipeline.scopedRest_eq_of_list spec0 c [cc0_scratch0, cc0_scratch1, cc1_stg0_0, cc1_stg0_1, cc1_stg1_0, cc1_stg1_1, cc1_stg2_0, cc1_stg2_1, cc1_scratch0, cc1_scratch1] (by decide) (by decide)

/-- The invariant before position n: the accumulators at what position n − 1 left (at anything before the first), the other
    scoped buffers at anything, the generator register at some state. -/
def Phi0 (c : Dev nD) (n : ℕ) : sProp 𝕄 :=
  iprop(∃ s5 : Vec F S2x1024x16 .f32, ∃ s6 : Vec F S2x1024 .f32, ⌜n ≠ 0 → (s5, s6) = accAt0 V c (n - 1)⌝ ∗
    ((owns (c : Thread nD τ) sc5_0 fullShare s5 ∗ owns (c : Thread nD τ) sc6_0 fullShare s6 ∗ Rest0 c) ∗ (∃ r, prngReg c r)))

/-- What the launch hands the region is the invariant before the first point. -/
theorem Phi0_in (c : Dev nD) :
    iprop((∃ r, prngReg c r) ∗ Pipeline.scopedRest (Ix := Unit) (Name := ℕ) (U := UR sig nD τ) (Lvl := ℕ) (Val := Elt F) spec0 c) ⊢ (Phi0 V c 0 : sProp 𝕄) := by
  unfold Phi0; rw [scopedRest0_split]
  iintro ⟨Hg, ⟨%f5, H5⟩, ⟨%f6, H6⟩, HR⟩
  iexists f5; iexists f6
  isplitr; · ipureintro; exact fun h => absurd rfl h
  isplitl [H5 H6 HR]
  · isplitl [H5]; · iapply (own_of_pt5_0 c f5); iexact H5
    isplitl [H6]; · iapply (own_of_pt6_0 c f6); iexact H6
    iexact HR
  iexact Hg

/-- The invariant at any position gives the scoped buffers back at contents not named. -/
theorem Phi0_out (c : Dev nD) (n : ℕ) :
    (Phi0 V c n : sProp 𝕄) ⊢ iprop((∃ r, prngReg c r) ∗ Pipeline.scopedRest (Ix := Unit) (Name := ℕ) (U := UR sig nD τ) (Lvl := ℕ) (Val := Elt F) spec0 c) := by
  unfold Phi0; rw [scopedRest0_split]
  iintro ⟨%s5, %s6, -, ⟨H5, H6, HR⟩, Hg⟩
  isplitl [Hg]; · iexact Hg
  isplitl [H5]; · iexists s5; iapply (pt_of_own5_0 c s5); iexact H5
  isplitl [H6]; · iexists s6; iapply (pt_of_own6_0 c s6); iexact H6
  iexact HR

/-! ## The pipeline's proof data -/

/-- The proof data on core c: the arrays as the region finds them; after the body at point t each input's buffer at its block,
    the output's at the quotient of the accumulators of position t (written back only where t is a last reduction tile);
    the invariant Phi; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (accAt0 V c t.val).1 (accAt0 V c t.val).2
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay5 (accAt0 V c t.val).1 (accAt0 V c t.val).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

set_option maxHeartbeats 4000000 in
/-- The body at any point: the inputs' memrefs hold their blocks, the invariant hands over the accumulators at what the
    point before left, so the body's triple applies; it gives the accumulators back at this position's contents (acc_step),
    the output block at their quotient where the point is a last reduction tile and untouched elsewhere. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl,
    show (dat0 V c).Φ t.succ = Phi0 V c (t.val + 1) from rfl,
    show (dat0 V c).Φ t.castSucc = Phi0 V c t.val from by dsimp only [dat0]; simp only [Fin.coe_castSucc],
    show (dat0 V c).leavesExact 0 t = owns (c : Thread nD τ) (st0_0 t) fullShare ((dat0 V c).after 0 t) from by
      unfold Dat.leavesExact; rw [live0_0 t],
    show (dat0 V c).leavesExact 1 t = owns (c : Thread nD τ) (st0_1 t) fullShare ((dat0 V c).after 1 t) from by
      unfold Dat.leavesExact; rw [live0_1 t],
    after0_0, after0_1]
  unfold Phi0
  iintro ⟨⟨%s5, %s6, %hs, ⟨HS5, HS6, HR⟩, Hg⟩, Ho, ⟨%d0, H0⟩, ⟨%d1, H1⟩, ⟨%d2, H2⟩⟩
  have hacc := acc_step0 V c t s5 s6 hs
  iapply (sound_kernel0 c Set.univ (grid0.coords t) _ _ _ _ _ _ _ _ _ _ (iblk0 V c 0 t) (iblk0 V c 1 t) ((dat0 V c).before 2 t d2) s5 s6 _)
  isplitl [H0]; · iexact H0
  isplitl [H1]; · iexact H1
  isplitl [H2]; · iexact H2
  isplitl [HS5]; · iexact HS5
  isplitl [HS6]; · iexact HS6
  iintro ⟨H0, H1, H2, HS5, HS6⟩
  isplitl [HS5 HS6 HR Hg]
  · iexists (acc5_0 (grid0.coords t) (iblk0 V c 0 t) (iblk0 V c 1 t) s5)
    iexists (acc6_0 (grid0.coords t) (iblk0 V c 1 t) s6)
    isplitr; · ipureintro; exact fun _ => by rw [Nat.add_sub_cancel]; exact hacc
    isplitl [HS5 HS6 HR]
    · isplitl [HS5]; · iexact HS5
      isplitl [HS6]; · iexact HS6
      iexact HR
    iexact Hg
  isplitl [Ho]; · iexact Ho
  isplitl [H0]; · iexact H0
  isplitl [H1]; · iexact H1
  by_cases h1 : cond0_1 (grid0.coords t)
  · rw [show (dat0 V c).leavesExact 2 t = owns (c : Thread nD τ) (st0_2 t) fullShare ((dat0 V c).after 2 t) from by
      unfold Dat.leavesExact; rw [live0_2 t h1], after0_2, ← hacc]
    unfold out4_0 stepAt0; rw [if_pos h1]
    iexact H2
  · rw [Dat.leavesExact_idle (dat0 V c) 2 t (idle0_2 t h1) (noFlush0_2 t h1)]
    unfold out4_0; rw [if_neg h1]
    iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Frame
end
-- ==== Proof.KBody1.lean ====
/-
  The body of the second kernel (hyperedges → vertices) at one grid point, as a triple.

  The body keeps two accumulators between the points of one output tile: a feature accumulator [2,1024,16] and a
  degree accumulator [2,1024]. At a point it (1) zeroes both when the reduction tile is the first, (2) adds to the
  first the product of the H block with the feature block (contracted over the reduction axis) and to the second
  the H block's sums over that axis, (3) when the reduction tile is the last, stores the quotient of the two into
  the output block. Stated once for every point: what each accumulator and the output block hold afterwards is a
  function (acc5, acc6, out4) of the point, the two input blocks and what the three buffers held before.
-/
import proofs.«135059_j24292335026751_1_alg».proof.Proof.KBody0

set_option maxRecDepth 16384

noncomputable section

namespace Cert.Kernel.Frame
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction tile is the first (the kernel's own test, on the second grid coordinate). -/
abbrev cond1_0 (i : grid1.Coords) : Prop := (Scalar.cmpi .ne (Scalar.extui (Scalar.cmpi .eq (BitVec.ofNat 32 (i 1).val) 0#32)) 0#32) = 1#1
/-- The reduction tile is the last. -/
abbrev cond1_1 (i : grid1.Coords) : Prop := k1_cond2 i = 1#1

/-- What the feature accumulator holds after the body: the product of the blocks added to zero (first reduction tile) or to what it held. -/
def acc5_1 (i : grid1.Coords) (x : Vec F S2x1024x16 .f32) (h : Vec F S2x1024x1024 .f32) (s5 : Vec F S2x1024x16 .f32) : Vec F S2x1024x16 .f32 :=
  k1_pay3 h x (if cond1_0 i then (k1_pay1 (F := F) : Vec F S2x1024x16 .f32) else s5)
/-- What the degree accumulator holds after the body. -/
def acc6_1 (i : grid1.Coords) (h : Vec F S2x1024x1024 .f32) (s6 : Vec F S2x1024 .f32) : Vec F S2x1024 .f32 :=
  k1_pay4 h (if cond1_0 i then (k1_pay2 (F := F) : Vec F S2x1024 .f32) else s6)
/-- What the output block holds after the body: the quotient at the last reduction tile, else what it held. -/
def out4_1 (i : grid1.Coords) (x : Vec F S2x1024x16 .f32) (h : Vec F S2x1024x1024 .f32) (d : Vec F S2x1024x16 .f32) (s5 : Vec F S2x1024x16 .f32) (s6 : Vec F S2x1024 .f32) : Vec F S2x1024x16 .f32 :=
  if cond1_1 i then (k1_pay5 (acc5_1 i x h s5) (acc6_1 i h s6) : Vec F S2x1024x16 .f32) else d

set_option maxHeartbeats 4000000 in
/-- The body when the v-tile test is taken and the last-tile test is taken. -/
theorem sound_k1_first_last (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond1_0 i) (hc1 : cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (k1_pay5 (k1_pay3 h x (k1_pay1 (F := F) : Vec F S2x1024x16 .f32)) (k1_pay4 h (k1_pay2 (F := F) : Vec F S2x1024 .f32)))
            ∗ owns (c : Thread nD τ) arg5 fullShare (k1_pay3 h x (k1_pay1 (F := F) : Vec F S2x1024x16 .f32)) ∗ owns (c : Thread nD τ) arg6 fullShare (k1_pay4 h (k1_pay2 (F := F) : Vec F S2x1024 .f32))) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is taken and the last-tile test is not taken. -/
theorem sound_k1_first (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond1_0 i) (hc1 : ¬cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare d
            ∗ owns (c : Thread nD τ) arg5 fullShare (k1_pay3 h x (k1_pay1 (F := F) : Vec F S2x1024x16 .f32)) ∗ owns (c : Thread nD τ) arg6 fullShare (k1_pay4 h (k1_pay2 (F := F) : Vec F S2x1024 .f32))) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is taken. -/
theorem sound_k1_last (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond1_0 i) (hc1 : cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (k1_pay5 (k1_pay3 h x s5) (k1_pay4 h s6))
            ∗ owns (c : Thread nD τ) arg5 fullShare (k1_pay3 h x s5) ∗ owns (c : Thread nD τ) arg6 fullShare (k1_pay4 h s6)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is not taken. -/
theorem sound_k1_mid (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond1_0 i) (hc1 : ¬cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare d
            ∗ owns (c : Thread nD τ) arg5 fullShare (k1_pay3 h x s5) ∗ owns (c : Thread nD τ) arg6 fullShare (k1_pay4 h s6)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

/-- The body on whole memrefs holding the blocks x, h, the output block d and the accumulators s5, s6 runs to the
    continuation with the inputs as they were and the output block and the accumulators at out4, acc5, acc6. -/
theorem sound_kernel1 (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (out4_1 i x h d s5 s6)
            ∗ owns (c : Thread nD τ) arg5 fullShare (acc5_1 i x h s5) ∗ owns (c : Thread nD τ) arg6 fullShare (acc6_1 i h s6)) -∗ K ⟨⟩))
      ⊢ wp frame (wpE (defs₀ (F := F)) Variants.none c none) E (cc1__kernel2 i arg2 harg2 arg3 harg3 arg4 harg4 arg5 harg5 arg6 harg6) K := by
  by_cases hc0 : cond1_0 i
  · by_cases hc1 : cond1_1 i
    · unfold out4_1 acc5_1 acc6_1
      simp only [if_pos hc0, if_pos hc1]
      exact sound_k1_first_last c E i arg2 harg2 arg3 harg3 arg4 harg4 arg5 harg5 arg6 harg6 hc0 hc1 x h d s5 s6 K
    · unfold out4_1 acc5_1 acc6_1
      simp only [if_pos hc0, if_neg hc1]
      exact sound_k1_first c E i arg2 harg2 arg3 harg3 arg4 harg4 arg5 harg5 arg6 harg6 hc0 hc1 x h d s5 s6 K
  · by_cases hc1 : cond1_1 i
    · unfold out4_1 acc5_1 acc6_1
      simp only [if_neg hc0, if_pos hc1]
      exact sound_k1_last c E i arg2 harg2 arg3 harg3 arg4 harg4 arg5 harg5 arg6 harg6 hc0 hc1 x h d s5 s6 K
    · unfold out4_1 acc5_1 acc6_1
      simp only [if_neg hc0, if_neg hc1]
      exact sound_k1_mid c E i arg2 harg2 arg3 harg3 arg4 harg4 arg5 harg5 arg6 harg6 hc0 hc1 x h d s5 s6 K

end Cert.Kernel.Frame
end
-- ==== Proof.KRegion1.lean ====
/-
  The second kernel (hyperedges → vertices) over its whole grid: what the accumulators hold after every point, the region's
  invariant, the proof data of the pipeline and the body obligation at every point.

  The grid is 8 output tiles × 8 reduction tiles, visited in row-major order, so position n is reduction tile n mod 8
  of output tile n div 8. After position n the accumulators hold the running sums of the current output tile
  (accAt): they restart at every position ≡ 0 (mod 8), and at the positions ≡ 7 (mod 8) the output block holds
  their quotient and is written back; at the other positions the output block is left as found.
-/
import proofs.«135059_j24292335026751_1_alg».proof.Proof.KBody1

set_option maxRecDepth 16384

noncomputable section

namespace Cert.Kernel.Frame
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first-tile test holds exactly at the positions ≡ 0 (mod 8), the last-tile test at those ≡ 7 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
/-- The input windows are never idle; the output window is idle, and not written back, exactly off the last reduction tile. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-- Position n as a point of the grid (taken mod 64, so that it is one for every n). -/
def pt1 (n : ℕ) : Fin cfg1.N := ⟨n % 64, lt_of_lt_of_eq (Nat.mod_lt _ (by decide)) (show (64 : ℕ) = cfg1.N from N_1.symm)⟩
theorem pt1_val (t : Fin cfg1.N) : pt1 t.val = t :=
  Fin.ext (Nat.mod_eq_of_lt (lt_of_lt_of_eq t.isLt (show cfg1.N = 64 from N_1)))

/-- One point's effect on the two accumulators. -/
def stepAt1 (c : Dev nD) (t : Fin cfg1.N) (s : Vec F S2x1024x16 .f32 × Vec F S2x1024 .f32) : Vec F S2x1024x16 .f32 × Vec F S2x1024 .f32 :=
  (acc5_1 (grid1.coords t) (iblk1 V c 1 t) (iblk1 V c 0 t) s.1, acc6_1 (grid1.coords t) (iblk1 V c 0 t) s.2)

/-- The two accumulators after position n: the points' effects composed from zero. -/
def accAt1 (c : Dev nD) : ℕ → Vec F S2x1024x16 .f32 × Vec F S2x1024 .f32
  | 0 => stepAt1 V c (pt1 0) ((k1_pay1 (F := F) : Vec F S2x1024x16 .f32), (k1_pay2 (F := F) : Vec F S2x1024 .f32))
  | n + 1 => stepAt1 V c (pt1 (n + 1)) (accAt1 c n)

/-- A point run on what the point before left (on anything, at the first point) leaves the accumulators of its position. -/
theorem acc_step1 (c : Dev nD) (t : Fin cfg1.N) (s5 : Vec F S2x1024x16 .f32) (s6 : Vec F S2x1024 .f32)
    (hs : t.val ≠ 0 → (s5, s6) = accAt1 V c (t.val - 1)) : stepAt1 V c t (s5, s6) = accAt1 V c t.val := by
  obtain ⟨n, hn⟩ := t
  cases n with
  | zero =>
    have hp : pt1 0 = ⟨0, hn⟩ := Fin.ext rfl
    have h0 : cond1_0 (grid1.coords ⟨0, hn⟩) := (hcond1_0 ⟨0, hn⟩).mpr rfl
    show stepAt1 V c ⟨0, hn⟩ (s5, s6) = stepAt1 V c (pt1 0) (_, _)
    rw [hp]; unfold stepAt1 acc5_1 acc6_1
    simp only [if_pos h0]
  | succ n =>
    have hs' : (s5, s6) = accAt1 V c n := hs (Nat.succ_ne_zero n)
    show stepAt1 V c ⟨n + 1, hn⟩ (s5, s6) = stepAt1 V c (pt1 (n + 1)) (accAt1 V c n)
    rw [← hs', show pt1 (n + 1) = ⟨n + 1, hn⟩ from pt1_val ⟨n + 1, hn⟩]

/-! ## The scratch buffers and the region's invariant -/

/-- The two accumulators' memrefs: whole scratch buffers. -/
abbrev sc5_1 : Memref sig .tc .vmem S2x1024x16 .f32 := Memref.whole cc1_scratch0
abbrev sc6_1 : Memref sig .tc .vmem S2x1024 .f32 := Memref.whole cc1_scratch1

/-- A whole scratch buffer owned through its memref is its points-to, both ways. -/
theorem own_of_pt5_1 (c : Dev nD) (f : Buf (Elt F) ((c : Thread nD τ).loc cc1_scratch0)) :
    (((c : Thread nD τ).loc cc1_scratch0) ↦{fullShare} f : sProp 𝕄) ⊢ owns (c : Thread nD τ) sc5_1 fullShare f := by
  rw [owns_whole]
theorem pt_of_own5_1 (c : Dev nD) (f : Buf (Elt F) ((c : Thread nD τ).loc cc1_scratch0)) :
    (owns (c : Thread nD τ) sc5_1 fullShare f : sProp 𝕄) ⊢ ((c : Thread nD τ).loc cc1_scratch0) ↦{fullShare} f := by
  rw [owns_whole]
theorem own_of_pt6_1 (c : Dev nD) (f : Buf (Elt F) ((c : Thread nD τ).loc cc1_scratch1)) :
    (((c : Thread nD τ).loc cc1_scratch1) ↦{fullShare} f : sProp 𝕄) ⊢ owns (c : Thread nD τ) sc6_1 fullShare f := by
  rw [owns_whole]
theorem pt_of_own6_1 (c : Dev nD) (f : Buf (Elt F) ((c : Thread nD τ).loc cc1_scratch1)) :
    (owns (c : Thread nD τ) sc6_1 fullShare f : sProp 𝕄) ⊢ ((c : Thread nD τ).loc cc1_scratch1) ↦{fullShare} f := by
  rw [owns_whole]

/-- The core's scoped buffers that are neither a staging buffer of this region nor one of its accumulators, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers outside the region's staging: the two accumulators, then the rest. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Rest1 (F := F) c) :=
  Pipeline.scopedRest_eq_of_list spec1 c [cc1_scratch0, cc1_scratch1, cc0_stg0_0, cc0_stg0_1, cc0_stg1_0, cc0_stg1_1, cc0_stg2_0, cc0_stg2_1, cc0_scratch0, cc0_scratch1] (by decide) (by decide)

/-- The invariant before position n: the accumulators at what position n − 1 left (at anything before the first), the other
    scoped buffers at anything, the generator register at some state. -/
def Phi1 (c : Dev nD) (n : ℕ) : sProp 𝕄 :=
  iprop(∃ s5 : Vec F S2x1024x16 .f32, ∃ s6 : Vec F S2x1024 .f32, ⌜n ≠ 0 → (s5, s6) = accAt1 V c (n - 1)⌝ ∗
    ((owns (c : Thread nD τ) sc5_1 fullShare s5 ∗ owns (c : Thread nD τ) sc6_1 fullShare s6 ∗ Rest1 c) ∗ (∃ r, prngReg c r)))

/-- What the launch hands the region is the invariant before the first point. -/
theorem Phi1_in (c : Dev nD) :
    iprop((∃ r, prngReg c r) ∗ Pipeline.scopedRest (Ix := Unit) (Name := ℕ) (U := UR sig nD τ) (Lvl := ℕ) (Val := Elt F) spec1 c) ⊢ (Phi1 V c 0 : sProp 𝕄) := by
  unfold Phi1; rw [scopedRest1_split]
  iintro ⟨Hg, ⟨%f5, H5⟩, ⟨%f6, H6⟩, HR⟩
  iexists f5; iexists f6
  isplitr; · ipureintro; exact fun h => absurd rfl h
  isplitl [H5 H6 HR]
  · isplitl [H5]; · iapply (own_of_pt5_1 c f5); iexact H5
    isplitl [H6]; · iapply (own_of_pt6_1 c f6); iexact H6
    iexact HR
  iexact Hg

/-- The invariant at any position gives the scoped buffers back at contents not named. -/
theorem Phi1_out (c : Dev nD) (n : ℕ) :
    (Phi1 V c n : sProp 𝕄) ⊢ iprop((∃ r, prngReg c r) ∗ Pipeline.scopedRest (Ix := Unit) (Name := ℕ) (U := UR sig nD τ) (Lvl := ℕ) (Val := Elt F) spec1 c) := by
  unfold Phi1; rw [scopedRest1_split]
  iintro ⟨%s5, %s6, -, ⟨H5, H6, HR⟩, Hg⟩
  isplitl [Hg]; · iexact Hg
  isplitl [H5]; · iexists s5; iapply (pt_of_own5_1 c s5); iexact H5
  isplitl [H6]; · iexists s6; iapply (pt_of_own6_1 c s6); iexact H6
  iexact HR

/-! ## The pipeline's proof data -/

/-- The proof data on core c: the arrays as the region finds them; after the body at point t each input's buffer at its block,
    the output's at the quotient of the accumulators of position t (written back only where t is a last reduction tile);
    the invariant Phi; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c t.val).1 (accAt1 V c t.val).2
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt1 V c t.val).1 (accAt1 V c t.val).2 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

set_option maxHeartbeats 4000000 in
/-- The body at any point: the inputs' memrefs hold their blocks, the invariant hands over the accumulators at what the
    point before left, so the body's triple applies; it gives the accumulators back at this position's contents (acc_step),
    the output block at their quotient where the point is a last reduction tile and untouched elsewhere. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl,
    show (dat1 V c).Φ t.succ = Phi1 V c (t.val + 1) from rfl,
    show (dat1 V c).Φ t.castSucc = Phi1 V c t.val from by dsimp only [dat1]; simp only [Fin.coe_castSucc],
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  unfold Phi1
  iintro ⟨⟨%s5, %s6, %hs, ⟨HS5, HS6, HR⟩, Hg⟩, Ho, ⟨%d0, H0⟩, ⟨%d1, H1⟩, ⟨%d2, H2⟩⟩
  have hacc := acc_step1 V c t s5 s6 hs
  iapply (sound_kernel1 c Set.univ (grid1.coords t) _ _ _ _ _ _ _ _ _ _ (iblk1 V c 1 t) (iblk1 V c 0 t) ((dat1 V c).before 2 t d2) s5 s6 _)
  isplitl [H1]; · iexact H1
  isplitl [H0]; · iexact H0
  isplitl [H2]; · iexact H2
  isplitl [HS5]; · iexact HS5
  isplitl [HS6]; · iexact HS6
  iintro ⟨H1, H0, H2, HS5, HS6⟩
  isplitl [HS5 HS6 HR Hg]
  · iexists (acc5_1 (grid1.coords t) (iblk1 V c 1 t) (iblk1 V c 0 t) s5)
    iexists (acc6_1 (grid1.coords t) (iblk1 V c 0 t) s6)
    isplitr; · ipureintro; exact fun _ => by rw [Nat.add_sub_cancel]; exact hacc
    isplitl [HS5 HS6 HR]
    · isplitl [HS5]; · iexact HS5
      isplitl [HS6]; · iexact HS6
      iexact HR
    iexact Hg
  isplitl [Ho]; · iexact Ho
  isplitl [H0]; · iexact H0
  isplitl [H1]; · iexact H1
  by_cases h1 : cond1_1 (grid1.coords t)
  · rw [show (dat1 V c).leavesExact 2 t = owns (c : Thread nD τ) (st1_2 t) fullShare ((dat1 V c).after 2 t) from by
      unfold Dat.leavesExact; rw [live1_2 t h1], after1_2, ← hacc]
    unfold out4_1 stepAt1; rw [if_pos h1]
    iexact H2
  · rw [Dat.leavesExact_idle (dat1 V c) 2 t (idle1_2 t h1) (noFlush1_2 t h1)]
    unfold out4_1; rw [if_neg h1]
    iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Frame
end
-- ==== Proof.KRun.lean ====
/-
  The whole program: the two regions one after the other, from the launch to the return.

  Between the regions every unscoped buffer of the core is held at contents named by a fold through the program: the
  launch memory (W0); after the first region the same with the first region's arrays at what its write-backs leave
  (W1: the hyperedge features in main_v0, the arguments untouched — an input array is never written); after the second
  region again so (W2: the result in main_v1). Each region is entered with its arrays split out of those buffers and
  left with them put back; the generator register and the (empty) debts ride along. Every weakly fair execution
  terminates, the result array ends at the second region's final array and both arguments end as launched.
-/
import proofs.«135059_j24292335026751_1_alg».proof.Proof.KRegion0
import proofs.«135059_j24292335026751_1_alg».proof.Proof.KRegion1
import Idealize.ShloMosaic.Lib.Pipeline.RegionsLoop

set_option maxRecDepth 16384

noncomputable section

namespace Cert.Kernel.Frame
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- The same read at the TensorCore's references: what the first region's proof data take. -/
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-- The first argument is staged by the first region only, as an input: it reaches the end as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl
/-- The second argument is an input of both regions. -/
theorem W1_main_arg1 (c : Dev nD) : W1 m c (Proc.devRef .tc main_arg1) = m ((c : Thread nD τ).loc main_arg1) :=
  (W1_arr m c 1).trans (((dat0 (VA m) c).arrAt_in 1 rfl _).trans (A_eq0 (VA m) c 1))
theorem W2_main_arg1 (c : Dev nD) : W2 m c (Proc.devRef .tc main_arg1) = m ((c : Thread nD τ).loc main_arg1) :=
  ((W2_arr m c 0).trans (((dat1 (VB m) c).arrAt_in 0 rfl _).trans (A_eq1 (VB m) c 0))).trans (W1_main_arg1 m c)
/-- The result is the second region's output array. -/
theorem W2_main_v1 (c : Dev nD) : W2 m c (Proc.devRef .tc main_v1) = (dat1 (VB m) c).arrAt 2 cfg1.N := W2_arr m c 2
/-- What the second region finds in its inputs: the second argument as launched, and the first region's output array. -/
theorem VB_main_arg1 (c : Dev nD) : VB m c main_arg1 = m ((c : Thread nD τ).loc main_arg1) := W1_main_arg1 m c
theorem VB_main_v0 (c : Dev nD) : VB m c main_v0 = (dat0 (VA m) c).arrAt 2 cfg0.N := W1_arr m c 2

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at W0, left at W1. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (VA m) c 0 from rfl]
    iintro ⟨Hp, -, Hr⟩
    iapply (Phi0_in (VA m) c)
    isplitl [Hp]; · iexact Hp
    iexact Hr
  hout c := by
    rw [Pipeline.ownSems0_none, show (pdats m 0 c).Φ (Fin.last _) = Phi0 (VA m) c (Fin.last cfg0.N).val from rfl]
    iintro H
    ihave H' := (Phi0_out (VA m) c _) $$ H
    icases H' with ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W1, left at W2. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (VB m) c 0 from rfl]
    iintro ⟨Hp, -, Hr⟩
    iapply (Phi1_in (VB m) c)
    isplitl [Hp]; · iexact Hp
    iexact Hr
  hout c := by
    rw [Pipeline.ownSems0_none, show (pdats m 1 c).Φ (Fin.last _) = Phi1 (VB m) c (Fin.last cfg1.N).val from rfl]
    iintro H
    ihave H' := (Phi1_out (VB m) c _) $$ H
    icases H' with ⟨Hp, Hr⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- At the compiled mesh, from any memory with zero counters: every weakly fair execution of the program terminates, nothing
    faulting; the result array ends at the second region's final array and the two arguments end as launched. -/
theorem run_main : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c)⟩)

end Cert.Kernel.Frame
end
-- ==== Proof.KIBody0.lean ====
/-
  The body of the first kernel (vertices → hyperedges) at one grid point, as a triple.

  The body keeps two accumulators between the points of one output tile: a feature accumulator [2,1024,16] and a
  degree accumulator [2,1024]. At a point it (1) zeroes both when the reduction tile is the first, (2) adds to the
  first the product of the H block with the feature block (contracted over the reduction axis) and to the second
  the H block's sums over that axis, (3) when the reduction tile is the last, stores the quotient of the two into
  the output block. Stated once for every point: what each accumulator and the output block hold afterwards is a
  function (acc5, acc6, out4) of the point, the two input blocks and what the three buffers held before.
-/
import proofs.«135059_j24292335026751_1_alg».proof.Proof.Gen.KernelIdeal.Launch
import proofs.«135059_j24292335026751_1_alg».proof.Proof.Gen.KernelIdeal.Skeleton
import proofs.«135059_j24292335026751_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction tile is the first (the kernel's own test, on the second grid coordinate). -/
abbrev cond0_0 (i : grid0.Coords) : Prop := (Scalar.cmpi .ne (Scalar.extui (Scalar.cmpi .eq (BitVec.ofNat 32 (i 1).val) 0#32)) 0#32) = 1#1
/-- The reduction tile is the last. -/
abbrev cond0_1 (i : grid0.Coords) : Prop := k0_cond2 i = 1#1

theorem hz3 : (![0, 0, 0] : Fin 3 → Nat) = fun _ => 0 := by funext a; fin_cases a <;> rfl
theorem hz2 : (![0, 0] : Fin 2 → Nat) = fun _ => 0 := by funext a; fin_cases a <;> rfl

/-- A whole-buffer load after stores the last of which was a whole-buffer store reads that store's payload. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-- After stores the last of which was a whole-buffer store the buffer reads that store's payload. -/
theorem read_writes_cons_whole {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A whole-buffer load of untouched contents reads them. -/
theorem readAt_whole {Val : EltTy → Type} {S : Shape} {e : EltTy} {sig' : RefSig} {κ : Kind} {sp : Space}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  rw [View.readAt_eq_ld, View.ld_unit_zero h]

/-- What the feature accumulator holds after the body: the product of the blocks added to zero (first reduction tile) or to what it held. -/
def acc5_0 (i : grid0.Coords) (x : Vec F S2x1024x16 .f32) (h : Vec F S2x1024x1024 .f32) (s5 : Vec F S2x1024x16 .f32) : Vec F S2x1024x16 .f32 :=
  k0_pay3 h x (if cond0_0 i then (k0_pay1 (F := F) : Vec F S2x1024x16 .f32) else s5)
/-- What the degree accumulator holds after the body. -/
def acc6_0 (i : grid0.Coords) (h : Vec F S2x1024x1024 .f32) (s6 : Vec F S2x1024 .f32) : Vec F S2x1024 .f32 :=
  k0_pay4 h (if cond0_0 i then (k0_pay2 (F := F) : Vec F S2x1024 .f32) else s6)
/-- What the output block holds after the body: the quotient at the last reduction tile, else what it held. -/
def out4_0 (i : grid0.Coords) (x : Vec F S2x1024x16 .f32) (h : Vec F S2x1024x1024 .f32) (d : Vec F S2x1024x16 .f32) (s5 : Vec F S2x1024x16 .f32) (s6 : Vec F S2x1024 .f32) : Vec F S2x1024x16 .f32 :=
  if cond0_1 i then (k0_pay5 (acc5_0 i x h s5) (acc6_0 i h s6) : Vec F S2x1024x16 .f32) else d

set_option maxHeartbeats 4000000 in
/-- The body when the v-tile test is taken and the last-tile test is taken. -/
theorem sound_k0_first_last (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond0_0 i) (hc1 : cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (k0_pay5 (k0_pay3 h x (k0_pay1 (F := F) : Vec F S2x1024x16 .f32)) (k0_pay4 h (k0_pay2 (F := F) : Vec F S2x1024 .f32)))
            ∗ owns (c : Thread nD τ) arg5 fullShare (k0_pay3 h x (k0_pay1 (F := F) : Vec F S2x1024x16 .f32)) ∗ owns (c : Thread nD τ) arg6 fullShare (k0_pay4 h (k0_pay2 (F := F) : Vec F S2x1024 .f32))) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is taken and the last-tile test is not taken. -/
theorem sound_k0_first (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond0_0 i) (hc1 : ¬cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare d
            ∗ owns (c : Thread nD τ) arg5 fullShare (k0_pay3 h x (k0_pay1 (F := F) : Vec F S2x1024x16 .f32)) ∗ owns (c : Thread nD τ) arg6 fullShare (k0_pay4 h (k0_pay2 (F := F) : Vec F S2x1024 .f32))) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is taken. -/
theorem sound_k0_last (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond0_0 i) (hc1 : cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (k0_pay5 (k0_pay3 h x s5) (k0_pay4 h s6))
            ∗ owns (c : Thread nD τ) arg5 fullShare (k0_pay3 h x s5) ∗ owns (c : Thread nD τ) arg6 fullShare (k0_pay4 h s6)) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is not taken. -/
theorem sound_k0_mid (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond0_0 i) (hc1 : ¬cond0_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare d
            ∗ owns (c : Thread nD τ) arg5 fullShare (k0_pay3 h x s5) ∗ owns (c : Thread nD τ) arg6 fullShare (k0_pay4 h s6)) -∗ K ⟨⟩))
      ⊢ wp frame (wpE (defs₀ (F := F)) Variants.none c none) E (cc0__kernel1 i arg2 harg2 arg3 harg3 arg4 harg4 arg5 harg5 arg6 harg6) K := by
  simp only [cc0__kernel1_eq_skeleton]; unfold cc0__kernel1_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

/-- The body on whole memrefs holding the blocks x, h, the output block d and the accumulators s5, s6 runs to the
    continuation with the inputs as they were and the output block and the accumulators at out4, acc5, acc6. -/
theorem sound_kernel0 (c : Dev nD) (E : Set ℕ) (i : grid0.Coords)
    (arg2 : Memref sig .tc .vmem S2x1024x16 .f32) (harg2 : arg2.IsWhole) (arg3 : Memref sig .tc .vmem S2x1024x1024 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg2 fullShare x ∗ owns (c : Thread nD τ) arg3 fullShare h ∗ owns (c : Thread nD τ) arg4 fullShare d
        ∗ owns (c : Thread nD τ) arg5 fullShare s5 ∗ owns (c : Thread nD τ) arg6 fullShare s6
        ∗ (iprop(owns (c : Thread nD τ) arg2 fullShare x ∗ owns (c : Thread nD τ) arg3 fullShare h ∗ owns (c : Thread nD τ) arg4 fullShare (out4_0 i x h d s5 s6)
            ∗ owns (c : Thread nD τ) arg5 fullShare (acc5_0 i x h s5) ∗ owns (c : Thread nD τ) arg6 fullShare (acc6_0 i h s6)) -∗ K ⟨⟩))
      ⊢ wp frame (wpE (defs₀ (F := F)) Variants.none c none) E (cc0__kernel1 i arg2 harg2 arg3 harg3 arg4 harg4 arg5 harg5 arg6 harg6) K := by
  by_cases hc0 : cond0_0 i
  · by_cases hc1 : cond0_1 i
    · unfold out4_0 acc5_0 acc6_0
      simp only [if_pos hc0, if_pos hc1]
      exact sound_k0_first_last c E i arg2 harg2 arg3 harg3 arg4 harg4 arg5 harg5 arg6 harg6 hc0 hc1 x h d s5 s6 K
    · unfold out4_0 acc5_0 acc6_0
      simp only [if_pos hc0, if_neg hc1]
      exact sound_k0_first c E i arg2 harg2 arg3 harg3 arg4 harg4 arg5 harg5 arg6 harg6 hc0 hc1 x h d s5 s6 K
  · by_cases hc1 : cond0_1 i
    · unfold out4_0 acc5_0 acc6_0
      simp only [if_neg hc0, if_pos hc1]
      exact sound_k0_last c E i arg2 harg2 arg3 harg3 arg4 harg4 arg5 harg5 arg6 harg6 hc0 hc1 x h d s5 s6 K
    · unfold out4_0 acc5_0 acc6_0
      simp only [if_neg hc0, if_neg hc1]
      exact sound_k0_mid c E i arg2 harg2 arg3 harg3 arg4 harg4 arg5 harg5 arg6 harg6 hc0 hc1 x h d s5 s6 K

end Cert.KernelIdeal.Frame
end
-- ==== Proof.KIRegion0.lean ====
/-
  The first kernel (vertices → hyperedges) over its whole grid: what the accumulators hold after every point, the region's
  invariant, the proof data of the pipeline and the body obligation at every point.

  The grid is 8 output tiles × 8 reduction tiles, visited in row-major order, so position n is reduction tile n mod 8
  of output tile n div 8. After position n the accumulators hold the running sums of the current output tile
  (accAt): they restart at every position ≡ 0 (mod 8), and at the positions ≡ 7 (mod 8) the output block holds
  their quotient and is written back; at the other positions the output block is left as found.
-/
import proofs.«135059_j24292335026751_1_alg».proof.Proof.KIBody0

set_option maxRecDepth 16384

noncomputable section

namespace Cert.KernelIdeal.Frame
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first-tile test holds exactly at the positions ≡ 0 (mod 8), the last-tile test at those ≡ 7 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)
/-- The input windows are never idle; the output window is idle, and not written back, exactly off the last reduction tile. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem live0_2 : ∀ t : Fin cfg0.N, cond0_1 (grid0.coords t) → cfg0.idle 2 (grid0.coords t) = false := by decide +kernel

/-- Position n as a point of the grid (taken mod 64, so that it is one for every n). -/
def pt0 (n : ℕ) : Fin cfg0.N := ⟨n % 64, lt_of_lt_of_eq (Nat.mod_lt _ (by decide)) (show (64 : ℕ) = cfg0.N from N_0.symm)⟩
theorem pt0_val (t : Fin cfg0.N) : pt0 t.val = t :=
  Fin.ext (Nat.mod_eq_of_lt (lt_of_lt_of_eq t.isLt (show cfg0.N = 64 from N_0)))

/-- One point's effect on the two accumulators. -/
def stepAt0 (c : Dev nD) (t : Fin cfg0.N) (s : Vec F S2x1024x16 .f32 × Vec F S2x1024 .f32) : Vec F S2x1024x16 .f32 × Vec F S2x1024 .f32 :=
  (acc5_0 (grid0.coords t) (iblk0 V c 0 t) (iblk0 V c 1 t) s.1, acc6_0 (grid0.coords t) (iblk0 V c 1 t) s.2)

/-- The two accumulators after position n: the points' effects composed from zero. -/
def accAt0 (c : Dev nD) : ℕ → Vec F S2x1024x16 .f32 × Vec F S2x1024 .f32
  | 0 => stepAt0 V c (pt0 0) ((k0_pay1 (F := F) : Vec F S2x1024x16 .f32), (k0_pay2 (F := F) : Vec F S2x1024 .f32))
  | n + 1 => stepAt0 V c (pt0 (n + 1)) (accAt0 c n)

/-- A point run on what the point before left (on anything, at the first point) leaves the accumulators of its position. -/
theorem acc_step0 (c : Dev nD) (t : Fin cfg0.N) (s5 : Vec F S2x1024x16 .f32) (s6 : Vec F S2x1024 .f32)
    (hs : t.val ≠ 0 → (s5, s6) = accAt0 V c (t.val - 1)) : stepAt0 V c t (s5, s6) = accAt0 V c t.val := by
  obtain ⟨n, hn⟩ := t
  cases n with
  | zero =>
    have hp : pt0 0 = ⟨0, hn⟩ := Fin.ext rfl
    have h0 : cond0_0 (grid0.coords ⟨0, hn⟩) := (hcond0_0 ⟨0, hn⟩).mpr rfl
    show stepAt0 V c ⟨0, hn⟩ (s5, s6) = stepAt0 V c (pt0 0) (_, _)
    rw [hp]; unfold stepAt0 acc5_0 acc6_0
    simp only [if_pos h0]
  | succ n =>
    have hs' : (s5, s6) = accAt0 V c n := hs (Nat.succ_ne_zero n)
    show stepAt0 V c ⟨n + 1, hn⟩ (s5, s6) = stepAt0 V c (pt0 (n + 1)) (accAt0 V c n)
    rw [← hs', show pt0 (n + 1) = ⟨n + 1, hn⟩ from pt0_val ⟨n + 1, hn⟩]

/-! ## The scratch buffers and the region's invariant -/

/-- The two accumulators' memrefs: whole scratch buffers. -/
abbrev sc5_0 : Memref sig .tc .vmem S2x1024x16 .f32 := Memref.whole cc0_scratch0
abbrev sc6_0 : Memref sig .tc .vmem S2x1024 .f32 := Memref.whole cc0_scratch1

/-- A whole scratch buffer owned through its memref is its points-to, both ways. -/
theorem own_of_pt5_0 (c : Dev nD) (f : Buf (Elt F) ((c : Thread nD τ).loc cc0_scratch0)) :
    (((c : Thread nD τ).loc cc0_scratch0) ↦{fullShare} f : sProp 𝕄) ⊢ owns (c : Thread nD τ) sc5_0 fullShare f := by
  rw [owns_whole]
theorem pt_of_own5_0 (c : Dev nD) (f : Buf (Elt F) ((c : Thread nD τ).loc cc0_scratch0)) :
    (owns (c : Thread nD τ) sc5_0 fullShare f : sProp 𝕄) ⊢ ((c : Thread nD τ).loc cc0_scratch0) ↦{fullShare} f := by
  rw [owns_whole]
theorem own_of_pt6_0 (c : Dev nD) (f : Buf (Elt F) ((c : Thread nD τ).loc cc0_scratch1)) :
    (((c : Thread nD τ).loc cc0_scratch1) ↦{fullShare} f : sProp 𝕄) ⊢ owns (c : Thread nD τ) sc6_0 fullShare f := by
  rw [owns_whole]
theorem pt_of_own6_0 (c : Dev nD) (f : Buf (Elt F) ((c : Thread nD τ).loc cc0_scratch1)) :
    (owns (c : Thread nD τ) sc6_0 fullShare f : sProp 𝕄) ⊢ ((c : Thread nD τ).loc cc0_scratch1) ↦{fullShare} f := by
  rw [owns_whole]

/-- The core's scoped buffers that are neither a staging buffer of this region nor one of its accumulators, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers outside the region's staging: the two accumulators, then the rest. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Rest0 (F := F) c) :=
  Pipeline.scopedRest_eq_of_list spec0 c [cc0_scratch0, cc0_scratch1, cc1_stg0_0, cc1_stg0_1, cc1_stg1_0, cc1_stg1_1, cc1_stg2_0, cc1_stg2_1, cc1_scratch0, cc1_scratch1] (by decide) (by decide)

/-- The invariant before position n: the accumulators at what position n − 1 left (at anything before the first), the other
    scoped buffers at anything, the generator register at some state. -/
def Phi0 (c : Dev nD) (n : ℕ) : sProp 𝕄 :=
  iprop(∃ s5 : Vec F S2x1024x16 .f32, ∃ s6 : Vec F S2x1024 .f32, ⌜n ≠ 0 → (s5, s6) = accAt0 V c (n - 1)⌝ ∗
    ((owns (c : Thread nD τ) sc5_0 fullShare s5 ∗ owns (c : Thread nD τ) sc6_0 fullShare s6 ∗ Rest0 c) ∗ (∃ r, prngReg c r)))

/-- What the launch hands the region is the invariant before the first point. -/
theorem Phi0_in (c : Dev nD) :
    iprop((∃ r, prngReg c r) ∗ Pipeline.scopedRest (Ix := Unit) (Name := ℕ) (U := UR sig nD τ) (Lvl := ℕ) (Val := Elt F) spec0 c) ⊢ (Phi0 V c 0 : sProp 𝕄) := by
  unfold Phi0; rw [scopedRest0_split]
  iintro ⟨Hg, ⟨%f5, H5⟩, ⟨%f6, H6⟩, HR⟩
  iexists f5; iexists f6
  isplitr; · ipureintro; exact fun h => absurd rfl h
  isplitl [H5 H6 HR]
  · isplitl [H5]; · iapply (own_of_pt5_0 c f5); iexact H5
    isplitl [H6]; · iapply (own_of_pt6_0 c f6); iexact H6
    iexact HR
  iexact Hg

/-- The invariant at any position gives the scoped buffers back at contents not named. -/
theorem Phi0_out (c : Dev nD) (n : ℕ) :
    (Phi0 V c n : sProp 𝕄) ⊢ iprop((∃ r, prngReg c r) ∗ Pipeline.scopedRest (Ix := Unit) (Name := ℕ) (U := UR sig nD τ) (Lvl := ℕ) (Val := Elt F) spec0 c) := by
  unfold Phi0; rw [scopedRest0_split]
  iintro ⟨%s5, %s6, -, ⟨H5, H6, HR⟩, Hg⟩
  isplitl [Hg]; · iexact Hg
  isplitl [H5]; · iexists s5; iapply (pt_of_own5_0 c s5); iexact H5
  isplitl [H6]; · iexists s6; iapply (pt_of_own6_0 c s6); iexact H6
  iexact HR

/-! ## The pipeline's proof data -/

/-- The proof data on core c: the arrays as the region finds them; after the body at point t each input's buffer at its block,
    the output's at the quotient of the accumulators of position t (written back only where t is a last reduction tile);
    the invariant Phi; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (accAt0 V c t.val).1 (accAt0 V c t.val).2
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay5 (accAt0 V c t.val).1 (accAt0 V c t.val).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

set_option maxHeartbeats 4000000 in
/-- The body at any point: the inputs' memrefs hold their blocks, the invariant hands over the accumulators at what the
    point before left, so the body's triple applies; it gives the accumulators back at this position's contents (acc_step),
    the output block at their quotient where the point is a last reduction tile and untouched elsewhere. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl,
    show (dat0 V c).Φ t.succ = Phi0 V c (t.val + 1) from rfl,
    show (dat0 V c).Φ t.castSucc = Phi0 V c t.val from by dsimp only [dat0]; simp only [Fin.coe_castSucc],
    show (dat0 V c).leavesExact 0 t = owns (c : Thread nD τ) (st0_0 t) fullShare ((dat0 V c).after 0 t) from by
      unfold Dat.leavesExact; rw [live0_0 t],
    show (dat0 V c).leavesExact 1 t = owns (c : Thread nD τ) (st0_1 t) fullShare ((dat0 V c).after 1 t) from by
      unfold Dat.leavesExact; rw [live0_1 t],
    after0_0, after0_1]
  unfold Phi0
  iintro ⟨⟨%s5, %s6, %hs, ⟨HS5, HS6, HR⟩, Hg⟩, Ho, ⟨%d0, H0⟩, ⟨%d1, H1⟩, ⟨%d2, H2⟩⟩
  have hacc := acc_step0 V c t s5 s6 hs
  iapply (sound_kernel0 c Set.univ (grid0.coords t) _ _ _ _ _ _ _ _ _ _ (iblk0 V c 0 t) (iblk0 V c 1 t) ((dat0 V c).before 2 t d2) s5 s6 _)
  isplitl [H0]; · iexact H0
  isplitl [H1]; · iexact H1
  isplitl [H2]; · iexact H2
  isplitl [HS5]; · iexact HS5
  isplitl [HS6]; · iexact HS6
  iintro ⟨H0, H1, H2, HS5, HS6⟩
  isplitl [HS5 HS6 HR Hg]
  · iexists (acc5_0 (grid0.coords t) (iblk0 V c 0 t) (iblk0 V c 1 t) s5)
    iexists (acc6_0 (grid0.coords t) (iblk0 V c 1 t) s6)
    isplitr; · ipureintro; exact fun _ => by rw [Nat.add_sub_cancel]; exact hacc
    isplitl [HS5 HS6 HR]
    · isplitl [HS5]; · iexact HS5
      isplitl [HS6]; · iexact HS6
      iexact HR
    iexact Hg
  isplitl [Ho]; · iexact Ho
  isplitl [H0]; · iexact H0
  isplitl [H1]; · iexact H1
  by_cases h1 : cond0_1 (grid0.coords t)
  · rw [show (dat0 V c).leavesExact 2 t = owns (c : Thread nD τ) (st0_2 t) fullShare ((dat0 V c).after 2 t) from by
      unfold Dat.leavesExact; rw [live0_2 t h1], after0_2, ← hacc]
    unfold out4_0 stepAt0; rw [if_pos h1]
    iexact H2
  · rw [Dat.leavesExact_idle (dat0 V c) 2 t (idle0_2 t h1) (noFlush0_2 t h1)]
    unfold out4_0; rw [if_neg h1]
    iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Frame
end
-- ==== Proof.KIBody1.lean ====
/-
  The body of the second kernel (hyperedges → vertices) at one grid point, as a triple.

  The body keeps two accumulators between the points of one output tile: a feature accumulator [2,1024,16] and a
  degree accumulator [2,1024]. At a point it (1) zeroes both when the reduction tile is the first, (2) adds to the
  first the product of the H block with the feature block (contracted over the reduction axis) and to the second
  the H block's sums over that axis, (3) when the reduction tile is the last, stores the quotient of the two into
  the output block. Stated once for every point: what each accumulator and the output block hold afterwards is a
  function (acc5, acc6, out4) of the point, the two input blocks and what the three buffers held before.
-/
import proofs.«135059_j24292335026751_1_alg».proof.Proof.KIBody0

set_option maxRecDepth 16384

noncomputable section

namespace Cert.KernelIdeal.Frame
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction tile is the first (the kernel's own test, on the second grid coordinate). -/
abbrev cond1_0 (i : grid1.Coords) : Prop := (Scalar.cmpi .ne (Scalar.extui (Scalar.cmpi .eq (BitVec.ofNat 32 (i 1).val) 0#32)) 0#32) = 1#1
/-- The reduction tile is the last. -/
abbrev cond1_1 (i : grid1.Coords) : Prop := k1_cond2 i = 1#1

/-- What the feature accumulator holds after the body: the product of the blocks added to zero (first reduction tile) or to what it held. -/
def acc5_1 (i : grid1.Coords) (x : Vec F S2x1024x16 .f32) (h : Vec F S2x1024x1024 .f32) (s5 : Vec F S2x1024x16 .f32) : Vec F S2x1024x16 .f32 :=
  k1_pay3 h x (if cond1_0 i then (k1_pay1 (F := F) : Vec F S2x1024x16 .f32) else s5)
/-- What the degree accumulator holds after the body. -/
def acc6_1 (i : grid1.Coords) (h : Vec F S2x1024x1024 .f32) (s6 : Vec F S2x1024 .f32) : Vec F S2x1024 .f32 :=
  k1_pay4 h (if cond1_0 i then (k1_pay2 (F := F) : Vec F S2x1024 .f32) else s6)
/-- What the output block holds after the body: the quotient at the last reduction tile, else what it held. -/
def out4_1 (i : grid1.Coords) (x : Vec F S2x1024x16 .f32) (h : Vec F S2x1024x1024 .f32) (d : Vec F S2x1024x16 .f32) (s5 : Vec F S2x1024x16 .f32) (s6 : Vec F S2x1024 .f32) : Vec F S2x1024x16 .f32 :=
  if cond1_1 i then (k1_pay5 (acc5_1 i x h s5) (acc6_1 i h s6) : Vec F S2x1024x16 .f32) else d

set_option maxHeartbeats 4000000 in
/-- The body when the v-tile test is taken and the last-tile test is taken. -/
theorem sound_k1_first_last (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond1_0 i) (hc1 : cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (k1_pay5 (k1_pay3 h x (k1_pay1 (F := F) : Vec F S2x1024x16 .f32)) (k1_pay4 h (k1_pay2 (F := F) : Vec F S2x1024 .f32)))
            ∗ owns (c : Thread nD τ) arg5 fullShare (k1_pay3 h x (k1_pay1 (F := F) : Vec F S2x1024x16 .f32)) ∗ owns (c : Thread nD τ) arg6 fullShare (k1_pay4 h (k1_pay2 (F := F) : Vec F S2x1024 .f32))) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is taken and the last-tile test is not taken. -/
theorem sound_k1_first (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : cond1_0 i) (hc1 : ¬cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare d
            ∗ owns (c : Thread nD τ) arg5 fullShare (k1_pay3 h x (k1_pay1 (F := F) : Vec F S2x1024x16 .f32)) ∗ owns (c : Thread nD τ) arg6 fullShare (k1_pay4 h (k1_pay2 (F := F) : Vec F S2x1024 .f32))) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is taken. -/
theorem sound_k1_last (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond1_0 i) (hc1 : cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (k1_pay5 (k1_pay3 h x s5) (k1_pay4 h s6))
            ∗ owns (c : Thread nD τ) arg5 fullShare (k1_pay3 h x s5) ∗ owns (c : Thread nD τ) arg6 fullShare (k1_pay4 h s6)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

set_option maxHeartbeats 4000000 in
/-- The body when the v-tile test is not taken and the last-tile test is not taken. -/
theorem sound_k1_mid (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (hc0 : ¬cond1_0 i) (hc1 : ¬cond1_1 i)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare d
            ∗ owns (c : Thread nD τ) arg5 fullShare (k1_pay3 h x s5) ∗ owns (c : Thread nD τ) arg6 fullShare (k1_pay4 h s6)) -∗ K ⟨⟩))
      ⊢ wp frame (wpE (defs₀ (F := F)) Variants.none c none) E (cc1__kernel2 i arg2 harg2 arg3 harg3 arg4 harg4 arg5 harg5 arg6 harg6) K := by
  simp only [cc1__kernel2_eq_skeleton]; unfold cc1__kernel2_skel
  unfold owns
  iintro ⟨⟨%fx, %hfx, Hx⟩, ⟨%fh, %hfh, Hh⟩, ⟨%f4, %hf4, H4⟩, ⟨%f5, %hf5, H5⟩, ⟨%f6, %hf6, H6⟩, Hk⟩
  subst hfx; subst hfh; subst hf4; subst hf5; subst hf6
  sl_exec (disch := first | exact hc0 | exact hc1)
  sl_step
  iapply Hk
  isplitl [Hx]; · iexists _; isplitr; · ipureintro; rfl
                  iexact Hx
  isplitl [Hh]; · iexists _; isplitr; · ipureintro; rfl
                  iexact Hh
  isplitl [H4]
  · iexists _; isplitr; swap; · iexact H4
    ipureintro
    rfl
  isplitl [H5]
  · iexists _; isplitr; swap; · iexact H5
    ipureintro
    sl_unfold_words
    rw [read_writes_cons_whole (S := S2x1024x16) _ _ hz3]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]
  · iexists _; isplitr; swap; · iexact H6
    ipureintro
    sl_unfold_words
    rw [read_writes_cons_whole (S := S2x1024) _ _ hz2]
    simp only [readCov_cons_whole (S := S2x1024x16) _ hz3, readCov_cons_whole (S := S2x1024) _ hz2, readAt_whole (S := S2x1024x16) _ hz3, readAt_whole (S := S2x1024x1024) _ hz3, readAt_whole (S := S2x1024) _ hz2]

/-- The body on whole memrefs holding the blocks x, h, the output block d and the accumulators s5, s6 runs to the
    continuation with the inputs as they were and the output block and the accumulators at out4, acc5, acc6. -/
theorem sound_kernel1 (c : Dev nD) (E : Set ℕ) (i : grid1.Coords)
    (arg2 : Memref sig .tc .vmem S2x1024x1024 .f32) (harg2 : arg2.IsWhole) (arg3 : Memref sig .tc .vmem S2x1024x16 .f32) (harg3 : arg3.IsWhole)
    (arg4 : Memref sig .tc .vmem S2x1024x16 .f32) (harg4 : arg4.IsWhole) (arg5 : Memref sig .tc .vmem S2x1024x16 .f32) (harg5 : arg5.IsWhole)
    (arg6 : Memref sig .tc .vmem S2x1024 .f32) (harg6 : arg6.IsWhole)
    (x : Vec F S2x1024x16 .f32) (h : Vec F S2x1024x1024 .f32) (d : Vec F S2x1024x16 .f32)
    (s5 : Vec F S2x1024x16 .f32) (s6 : Vec F S2x1024 .f32) (K : PUnit → sProp 𝕄) :
    iprop(owns (c : Thread nD τ) arg3 fullShare x ∗ owns (c : Thread nD τ) arg2 fullShare h ∗ owns (c : Thread nD τ) arg4 fullShare d
        ∗ owns (c : Thread nD τ) arg5 fullShare s5 ∗ owns (c : Thread nD τ) arg6 fullShare s6
        ∗ (iprop(owns (c : Thread nD τ) arg3 fullShare x ∗ owns (c : Thread nD τ) arg2 fullShare h ∗ owns (c : Thread nD τ) arg4 fullShare (out4_1 i x h d s5 s6)
            ∗ owns (c : Thread nD τ) arg5 fullShare (acc5_1 i x h s5) ∗ owns (c : Thread nD τ) arg6 fullShare (acc6_1 i h s6)) -∗ K ⟨⟩))
      ⊢ wp frame (wpE (defs₀ (F := F)) Variants.none c none) E (cc1__kernel2 i arg2 harg2 arg3 harg3 arg4 harg4 arg5 harg5 arg6 harg6) K := by
  by_cases hc0 : cond1_0 i
  · by_cases hc1 : cond1_1 i
    · unfold out4_1 acc5_1 acc6_1
      simp only [if_pos hc0, if_pos hc1]
      exact sound_k1_first_last c E i arg2 harg2 arg3 harg3 arg4 harg4 arg5 harg5 arg6 harg6 hc0 hc1 x h d s5 s6 K
    · unfold out4_1 acc5_1 acc6_1
      simp only [if_pos hc0, if_neg hc1]
      exact sound_k1_first c E i arg2 harg2 arg3 harg3 arg4 harg4 arg5 harg5 arg6 harg6 hc0 hc1 x h d s5 s6 K
  · by_cases hc1 : cond1_1 i
    · unfold out4_1 acc5_1 acc6_1
      simp only [if_neg hc0, if_pos hc1]
      exact sound_k1_last c E i arg2 harg2 arg3 harg3 arg4 harg4 arg5 harg5 arg6 harg6 hc0 hc1 x h d s5 s6 K
    · unfold out4_1 acc5_1 acc6_1
      simp only [if_neg hc0, if_neg hc1]
      exact sound_k1_mid c E i arg2 harg2 arg3 harg3 arg4 harg4 arg5 harg5 arg6 harg6 hc0 hc1 x h d s5 s6 K

end Cert.KernelIdeal.Frame
end
-- ==== Proof.KIRegion1.lean ====
/-
  The second kernel (hyperedges → vertices) over its whole grid: what the accumulators hold after every point, the region's
  invariant, the proof data of the pipeline and the body obligation at every point.

  The grid is 8 output tiles × 8 reduction tiles, visited in row-major order, so position n is reduction tile n mod 8
  of output tile n div 8. After position n the accumulators hold the running sums of the current output tile
  (accAt): they restart at every position ≡ 0 (mod 8), and at the positions ≡ 7 (mod 8) the output block holds
  their quotient and is written back; at the other positions the output block is left as found.
-/
import proofs.«135059_j24292335026751_1_alg».proof.Proof.KIBody1

set_option maxRecDepth 16384

noncomputable section

namespace Cert.KernelIdeal.Frame
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first-tile test holds exactly at the positions ≡ 0 (mod 8), the last-tile test at those ≡ 7 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
/-- The input windows are never idle; the output window is idle, and not written back, exactly off the last reduction tile. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-- Position n as a point of the grid (taken mod 64, so that it is one for every n). -/
def pt1 (n : ℕ) : Fin cfg1.N := ⟨n % 64, lt_of_lt_of_eq (Nat.mod_lt _ (by decide)) (show (64 : ℕ) = cfg1.N from N_1.symm)⟩
theorem pt1_val (t : Fin cfg1.N) : pt1 t.val = t :=
  Fin.ext (Nat.mod_eq_of_lt (lt_of_lt_of_eq t.isLt (show cfg1.N = 64 from N_1)))

/-- One point's effect on the two accumulators. -/
def stepAt1 (c : Dev nD) (t : Fin cfg1.N) (s : Vec F S2x1024x16 .f32 × Vec F S2x1024 .f32) : Vec F S2x1024x16 .f32 × Vec F S2x1024 .f32 :=
  (acc5_1 (grid1.coords t) (iblk1 V c 1 t) (iblk1 V c 0 t) s.1, acc6_1 (grid1.coords t) (iblk1 V c 0 t) s.2)

/-- The two accumulators after position n: the points' effects composed from zero. -/
def accAt1 (c : Dev nD) : ℕ → Vec F S2x1024x16 .f32 × Vec F S2x1024 .f32
  | 0 => stepAt1 V c (pt1 0) ((k1_pay1 (F := F) : Vec F S2x1024x16 .f32), (k1_pay2 (F := F) : Vec F S2x1024 .f32))
  | n + 1 => stepAt1 V c (pt1 (n + 1)) (accAt1 c n)

/-- A point run on what the point before left (on anything, at the first point) leaves the accumulators of its position. -/
theorem acc_step1 (c : Dev nD) (t : Fin cfg1.N) (s5 : Vec F S2x1024x16 .f32) (s6 : Vec F S2x1024 .f32)
    (hs : t.val ≠ 0 → (s5, s6) = accAt1 V c (t.val - 1)) : stepAt1 V c t (s5, s6) = accAt1 V c t.val := by
  obtain ⟨n, hn⟩ := t
  cases n with
  | zero =>
    have hp : pt1 0 = ⟨0, hn⟩ := Fin.ext rfl
    have h0 : cond1_0 (grid1.coords ⟨0, hn⟩) := (hcond1_0 ⟨0, hn⟩).mpr rfl
    show stepAt1 V c ⟨0, hn⟩ (s5, s6) = stepAt1 V c (pt1 0) (_, _)
    rw [hp]; unfold stepAt1 acc5_1 acc6_1
    simp only [if_pos h0]
  | succ n =>
    have hs' : (s5, s6) = accAt1 V c n := hs (Nat.succ_ne_zero n)
    show stepAt1 V c ⟨n + 1, hn⟩ (s5, s6) = stepAt1 V c (pt1 (n + 1)) (accAt1 V c n)
    rw [← hs', show pt1 (n + 1) = ⟨n + 1, hn⟩ from pt1_val ⟨n + 1, hn⟩]

/-! ## The scratch buffers and the region's invariant -/

/-- The two accumulators' memrefs: whole scratch buffers. -/
abbrev sc5_1 : Memref sig .tc .vmem S2x1024x16 .f32 := Memref.whole cc1_scratch0
abbrev sc6_1 : Memref sig .tc .vmem S2x1024 .f32 := Memref.whole cc1_scratch1

/-- A whole scratch buffer owned through its memref is its points-to, both ways. -/
theorem own_of_pt5_1 (c : Dev nD) (f : Buf (Elt F) ((c : Thread nD τ).loc cc1_scratch0)) :
    (((c : Thread nD τ).loc cc1_scratch0) ↦{fullShare} f : sProp 𝕄) ⊢ owns (c : Thread nD τ) sc5_1 fullShare f := by
  rw [owns_whole]
theorem pt_of_own5_1 (c : Dev nD) (f : Buf (Elt F) ((c : Thread nD τ).loc cc1_scratch0)) :
    (owns (c : Thread nD τ) sc5_1 fullShare f : sProp 𝕄) ⊢ ((c : Thread nD τ).loc cc1_scratch0) ↦{fullShare} f := by
  rw [owns_whole]
theorem own_of_pt6_1 (c : Dev nD) (f : Buf (Elt F) ((c : Thread nD τ).loc cc1_scratch1)) :
    (((c : Thread nD τ).loc cc1_scratch1) ↦{fullShare} f : sProp 𝕄) ⊢ owns (c : Thread nD τ) sc6_1 fullShare f := by
  rw [owns_whole]
theorem pt_of_own6_1 (c : Dev nD) (f : Buf (Elt F) ((c : Thread nD τ).loc cc1_scratch1)) :
    (owns (c : Thread nD τ) sc6_1 fullShare f : sProp 𝕄) ⊢ ((c : Thread nD τ).loc cc1_scratch1) ↦{fullShare} f := by
  rw [owns_whole]

/-- The core's scoped buffers that are neither a staging buffer of this region nor one of its accumulators, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers outside the region's staging: the two accumulators, then the rest. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Rest1 (F := F) c) :=
  Pipeline.scopedRest_eq_of_list spec1 c [cc1_scratch0, cc1_scratch1, cc0_stg0_0, cc0_stg0_1, cc0_stg1_0, cc0_stg1_1, cc0_stg2_0, cc0_stg2_1, cc0_scratch0, cc0_scratch1] (by decide) (by decide)

/-- The invariant before position n: the accumulators at what position n − 1 left (at anything before the first), the other
    scoped buffers at anything, the generator register at some state. -/
def Phi1 (c : Dev nD) (n : ℕ) : sProp 𝕄 :=
  iprop(∃ s5 : Vec F S2x1024x16 .f32, ∃ s6 : Vec F S2x1024 .f32, ⌜n ≠ 0 → (s5, s6) = accAt1 V c (n - 1)⌝ ∗
    ((owns (c : Thread nD τ) sc5_1 fullShare s5 ∗ owns (c : Thread nD τ) sc6_1 fullShare s6 ∗ Rest1 c) ∗ (∃ r, prngReg c r)))

/-- What the launch hands the region is the invariant before the first point. -/
theorem Phi1_in (c : Dev nD) :
    iprop((∃ r, prngReg c r) ∗ Pipeline.scopedRest (Ix := Unit) (Name := ℕ) (U := UR sig nD τ) (Lvl := ℕ) (Val := Elt F) spec1 c) ⊢ (Phi1 V c 0 : sProp 𝕄) := by
  unfold Phi1; rw [scopedRest1_split]
  iintro ⟨Hg, ⟨%f5, H5⟩, ⟨%f6, H6⟩, HR⟩
  iexists f5; iexists f6
  isplitr; · ipureintro; exact fun h => absurd rfl h
  isplitl [H5 H6 HR]
  · isplitl [H5]; · iapply (own_of_pt5_1 c f5); iexact H5
    isplitl [H6]; · iapply (own_of_pt6_1 c f6); iexact H6
    iexact HR
  iexact Hg

/-- The invariant at any position gives the scoped buffers back at contents not named. -/
theorem Phi1_out (c : Dev nD) (n : ℕ) :
    (Phi1 V c n : sProp 𝕄) ⊢ iprop((∃ r, prngReg c r) ∗ Pipeline.scopedRest (Ix := Unit) (Name := ℕ) (U := UR sig nD τ) (Lvl := ℕ) (Val := Elt F) spec1 c) := by
  unfold Phi1; rw [scopedRest1_split]
  iintro ⟨%s5, %s6, -, ⟨H5, H6, HR⟩, Hg⟩
  isplitl [Hg]; · iexact Hg
  isplitl [H5]; · iexists s5; iapply (pt_of_own5_1 c s5); iexact H5
  isplitl [H6]; · iexists s6; iapply (pt_of_own6_1 c s6); iexact H6
  iexact HR

/-! ## The pipeline's proof data -/

/-- The proof data on core c: the arrays as the region finds them; after the body at point t each input's buffer at its block,
    the output's at the quotient of the accumulators of position t (written back only where t is a last reduction tile);
    the invariant Phi; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c t.val).1 (accAt1 V c t.val).2
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt1 V c t.val).1 (accAt1 V c t.val).2 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

set_option maxHeartbeats 4000000 in
/-- The body at any point: the inputs' memrefs hold their blocks, the invariant hands over the accumulators at what the
    point before left, so the body's triple applies; it gives the accumulators back at this position's contents (acc_step),
    the output block at their quotient where the point is a last reduction tile and untouched elsewhere. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl,
    show (dat1 V c).Φ t.succ = Phi1 V c (t.val + 1) from rfl,
    show (dat1 V c).Φ t.castSucc = Phi1 V c t.val from by dsimp only [dat1]; simp only [Fin.coe_castSucc],
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  unfold Phi1
  iintro ⟨⟨%s5, %s6, %hs, ⟨HS5, HS6, HR⟩, Hg⟩, Ho, ⟨%d0, H0⟩, ⟨%d1, H1⟩, ⟨%d2, H2⟩⟩
  have hacc := acc_step1 V c t s5 s6 hs
  iapply (sound_kernel1 c Set.univ (grid1.coords t) _ _ _ _ _ _ _ _ _ _ (iblk1 V c 1 t) (iblk1 V c 0 t) ((dat1 V c).before 2 t d2) s5 s6 _)
  isplitl [H1]; · iexact H1
  isplitl [H0]; · iexact H0
  isplitl [H2]; · iexact H2
  isplitl [HS5]; · iexact HS5
  isplitl [HS6]; · iexact HS6
  iintro ⟨H1, H0, H2, HS5, HS6⟩
  isplitl [HS5 HS6 HR Hg]
  · iexists (acc5_1 (grid1.coords t) (iblk1 V c 1 t) (iblk1 V c 0 t) s5)
    iexists (acc6_1 (grid1.coords t) (iblk1 V c 0 t) s6)
    isplitr; · ipureintro; exact fun _ => by rw [Nat.add_sub_cancel]; exact hacc
    isplitl [HS5 HS6 HR]
    · isplitl [HS5]; · iexact HS5
      isplitl [HS6]; · iexact HS6
      iexact HR
    iexact Hg
  isplitl [Ho]; · iexact Ho
  isplitl [H0]; · iexact H0
  isplitl [H1]; · iexact H1
  by_cases h1 : cond1_1 (grid1.coords t)
  · rw [show (dat1 V c).leavesExact 2 t = owns (c : Thread nD τ) (st1_2 t) fullShare ((dat1 V c).after 2 t) from by
      unfold Dat.leavesExact; rw [live1_2 t h1], after1_2, ← hacc]
    unfold out4_1 stepAt1; rw [if_pos h1]
    iexact H2
  · rw [Dat.leavesExact_idle (dat1 V c) 2 t (idle1_2 t h1) (noFlush1_2 t h1)]
    unfold out4_1; rw [if_neg h1]
    iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Frame
end
-- ==== Proof.KIRun.lean ====
/-
  The whole program: the two regions one after the other, from the launch to the return.

  Between the regions every unscoped buffer of the core is held at contents named by a fold through the program: the
  launch memory (W0); after the first region the same with the first region's arrays at what its write-backs leave
  (W1: the hyperedge features in main_v0, the arguments untouched — an input array is never written); after the second
  region again so (W2: the result in main_v1). Each region is entered with its arrays split out of those buffers and
  left with them put back; the generator register and the (empty) debts ride along. Every weakly fair execution
  terminates, the result array ends at the second region's final array and both arguments end as launched.
-/
import proofs.«135059_j24292335026751_1_alg».proof.Proof.KIRegion0
import proofs.«135059_j24292335026751_1_alg».proof.Proof.KIRegion1
import Idealize.ShloMosaic.Lib.Pipeline.RegionsLoop

set_option maxRecDepth 16384

noncomputable section

namespace Cert.KernelIdeal.Frame
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- The same read at the TensorCore's references: what the first region's proof data take. -/
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-- The first argument is staged by the first region only, as an input: it reaches the end as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl
/-- The second argument is an input of both regions. -/
theorem W1_main_arg1 (c : Dev nD) : W1 m c (Proc.devRef .tc main_arg1) = m ((c : Thread nD τ).loc main_arg1) :=
  (W1_arr m c 1).trans (((dat0 (VA m) c).arrAt_in 1 rfl _).trans (A_eq0 (VA m) c 1))
theorem W2_main_arg1 (c : Dev nD) : W2 m c (Proc.devRef .tc main_arg1) = m ((c : Thread nD τ).loc main_arg1) :=
  ((W2_arr m c 0).trans (((dat1 (VB m) c).arrAt_in 0 rfl _).trans (A_eq1 (VB m) c 0))).trans (W1_main_arg1 m c)
/-- The result is the second region's output array. -/
theorem W2_main_v1 (c : Dev nD) : W2 m c (Proc.devRef .tc main_v1) = (dat1 (VB m) c).arrAt 2 cfg1.N := W2_arr m c 2
/-- What the second region finds in its inputs: the second argument as launched, and the first region's output array. -/
theorem VB_main_arg1 (c : Dev nD) : VB m c main_arg1 = m ((c : Thread nD τ).loc main_arg1) := W1_main_arg1 m c
theorem VB_main_v0 (c : Dev nD) : VB m c main_v0 = (dat0 (VA m) c).arrAt 2 cfg0.N := W1_arr m c 2

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at W0, left at W1. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (VA m) c 0 from rfl]
    iintro ⟨Hp, -, Hr⟩
    iapply (Phi0_in (VA m) c)
    isplitl [Hp]; · iexact Hp
    iexact Hr
  hout c := by
    rw [Pipeline.ownSems0_none, show (pdats m 0 c).Φ (Fin.last _) = Phi0 (VA m) c (Fin.last cfg0.N).val from rfl]
    iintro H
    ihave H' := (Phi0_out (VA m) c _) $$ H
    icases H' with ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W1, left at W2. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (VB m) c 0 from rfl]
    iintro ⟨Hp, -, Hr⟩
    iapply (Phi1_in (VB m) c)
    isplitl [Hp]; · iexact Hp
    iexact Hr
  hout c := by
    rw [Pipeline.ownSems0_none, show (pdats m 1 c).Φ (Fin.last _) = Phi1 (VB m) c (Fin.last cfg1.N).val from rfl]
    iintro H
    ihave H' := (Phi1_out (VB m) c _) $$ H
    icases H' with ⟨Hp, Hr⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- At the compiled mesh, from any memory with zero counters: every weakly fair execution of the program terminates, nothing
    faulting; the result array ends at the second region's final array and the two arguments end as launched. -/
theorem run_main : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c)⟩)

end Cert.KernelIdeal.Frame
end
-- ==== Proof.KIPayloads.lean ====
/-
  The kernel's payloads read at an index, on the extended reals.

  The kernel has two passes, each over tiles of H. A pass keeps two running arrays: a contraction accumulator
  and a degree accumulator. Read at coordinates, with every operation exact:
    * the initial values are zero;
    * a step of the first pass adds to the accumulator at (n, e, c) the tile's Σ_v h n v e · x n v c and to the degree
      at (n, e) the tile's Σ_v h n v e;  a step of the second adds at (n, v, c) the tile's Σ_e h n v e · f n e c and at
      (n, v) the tile's Σ_e h n v e;
    * the last step of a pass divides the accumulator at (n, e, c) by the degree at (n, e).
  The narrowing of the matrix product's operands to a 16-bit format is the identity on the extended reals, a cast to
  the same shape is the identity, and the degree enters the division as a column [2, 1024] → [2, 1024, 1] broadcast
  along the features [2, 1024, 1] → [2, 1024, 16].
-/
import proofs.«135059_j24292335026751_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen

/-! ## A trailing unit axis added by a cast, and broadcast -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one column entry at (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-! ## The two matrix products at an index -/

/-- The operand coordinates of the first pass's product (batch axis 0; the vertices, axis 1 of both operands, contracted). -/
theorem lhs_vertices_0 (i : S2x1024x16.Idx) (q : dot_S2x1024x1024_S2x1024x16_S2x1024x16_1_1_2_2_0_0.contr.Idx) :
    (dot_S2x1024x1024_S2x1024x16_S2x1024x16_1_1_2_2_0_0.lhsIdx i q 0).val = (i 0).val := by
  unfold DotDims.lhsIdx
  rw [dif_pos (show (0 : Fin S2x1024x1024.rank) ∈ dot_S2x1024x1024_S2x1024x16_S2x1024x16_1_1_2_2_0_0.lhsBatch by decide)]
  rfl
theorem lhs_vertices_1 (i : S2x1024x16.Idx) (q : dot_S2x1024x1024_S2x1024x16_S2x1024x16_1_1_2_2_0_0.contr.Idx) :
    (dot_S2x1024x1024_S2x1024x16_S2x1024x16_1_1_2_2_0_0.lhsIdx i q 1).val = (q ⟨0, by decide⟩).val :=
  dot_S2x1024x1024_S2x1024x16_S2x1024x16_1_1_2_2_0_0.lhsIdx_val_of_single rfl i q
theorem lhs_vertices_2 (i : S2x1024x16.Idx) (q : dot_S2x1024x1024_S2x1024x16_S2x1024x16_1_1_2_2_0_0.contr.Idx) :
    (dot_S2x1024x1024_S2x1024x16_S2x1024x16_1_1_2_2_0_0.lhsIdx i q 2).val = (i 1).val := by
  unfold DotDims.lhsIdx
  rw [dif_neg (show ¬(2 : Fin S2x1024x1024.rank) ∈ dot_S2x1024x1024_S2x1024x16_S2x1024x16_1_1_2_2_0_0.lhsBatch by decide), dif_pos (show (2 : Fin S2x1024x1024.rank) ∈ dot_S2x1024x1024_S2x1024x16_S2x1024x16_1_1_2_2_0_0.lhsNonContracting by decide)]
  rfl
theorem rhs_vertices_0 (i : S2x1024x16.Idx) (q : dot_S2x1024x1024_S2x1024x16_S2x1024x16_1_1_2_2_0_0.contr.Idx) :
    (dot_S2x1024x1024_S2x1024x16_S2x1024x16_1_1_2_2_0_0.rhsIdx i q 0).val = (i 0).val := by
  unfold DotDims.rhsIdx
  rw [dif_pos (show (0 : Fin S2x1024x16.rank) ∈ dot_S2x1024x1024_S2x1024x16_S2x1024x16_1_1_2_2_0_0.rhsBatch by decide)]
  rfl
theorem rhs_vertices_1 (i : S2x1024x16.Idx) (q : dot_S2x1024x1024_S2x1024x16_S2x1024x16_1_1_2_2_0_0.contr.Idx) :
    (dot_S2x1024x1024_S2x1024x16_S2x1024x16_1_1_2_2_0_0.rhsIdx i q 1).val = (q ⟨0, by decide⟩).val :=
  dot_S2x1024x1024_S2x1024x16_S2x1024x16_1_1_2_2_0_0.rhsIdx_val_of_single rfl i q
theorem rhs_vertices_2 (i : S2x1024x16.Idx) (q : dot_S2x1024x1024_S2x1024x16_S2x1024x16_1_1_2_2_0_0.contr.Idx) :
    (dot_S2x1024x1024_S2x1024x16_S2x1024x16_1_1_2_2_0_0.rhsIdx i q 2).val = (i 2).val := by
  unfold DotDims.rhsIdx
  rw [dif_neg (show ¬(2 : Fin S2x1024x16.rank) ∈ dot_S2x1024x1024_S2x1024x16_S2x1024x16_1_1_2_2_0_0.rhsBatch by decide), dif_pos (show (2 : Fin S2x1024x16.rank) ∈ dot_S2x1024x1024_S2x1024x16_S2x1024x16_1_1_2_2_0_0.rhsNonContracting by decide)]
  rfl

/-- The operand coordinates of the second pass's product (batch axis 0; the hyperedges, axis 2 of the left operand and
    axis 1 of the right, contracted). -/
theorem lhs_hyperedges_0 (i : S2x1024x16.Idx) (q : dot_S2x1024x1024_S2x1024x16_S2x1024x16_2_1_1_2_0_0.contr.Idx) :
    (dot_S2x1024x1024_S2x1024x16_S2x1024x16_2_1_1_2_0_0.lhsIdx i q 0).val = (i 0).val := by
  unfold DotDims.lhsIdx
  rw [dif_pos (show (0 : Fin S2x1024x1024.rank) ∈ dot_S2x1024x1024_S2x1024x16_S2x1024x16_2_1_1_2_0_0.lhsBatch by decide)]
  rfl
theorem lhs_hyperedges_1 (i : S2x1024x16.Idx) (q : dot_S2x1024x1024_S2x1024x16_S2x1024x16_2_1_1_2_0_0.contr.Idx) :
    (dot_S2x1024x1024_S2x1024x16_S2x1024x16_2_1_1_2_0_0.lhsIdx i q 1).val = (i 1).val := by
  unfold DotDims.lhsIdx
  rw [dif_neg (show ¬(1 : Fin S2x1024x1024.rank) ∈ dot_S2x1024x1024_S2x1024x16_S2x1024x16_2_1_1_2_0_0.lhsBatch by decide), dif_pos (show (1 : Fin S2x1024x1024.rank) ∈ dot_S2x1024x1024_S2x1024x16_S2x1024x16_2_1_1_2_0_0.lhsNonContracting by decide)]
  rfl
theorem lhs_hyperedges_2 (i : S2x1024x16.Idx) (q : dot_S2x1024x1024_S2x1024x16_S2x1024x16_2_1_1_2_0_0.contr.Idx) :
    (dot_S2x1024x1024_S2x1024x16_S2x1024x16_2_1_1_2_0_0.lhsIdx i q 2).val = (q ⟨0, by decide⟩).val :=
  dot_S2x1024x1024_S2x1024x16_S2x1024x16_2_1_1_2_0_0.lhsIdx_val_of_single rfl i q
theorem rhs_hyperedges_0 (i : S2x1024x16.Idx) (q : dot_S2x1024x1024_S2x1024x16_S2x1024x16_2_1_1_2_0_0.contr.Idx) :
    (dot_S2x1024x1024_S2x1024x16_S2x1024x16_2_1_1_2_0_0.rhsIdx i q 0).val = (i 0).val := by
  unfold DotDims.rhsIdx
  rw [dif_pos (show (0 : Fin S2x1024x16.rank) ∈ dot_S2x1024x1024_S2x1024x16_S2x1024x16_2_1_1_2_0_0.rhsBatch by decide)]
  rfl
theorem rhs_hyperedges_1 (i : S2x1024x16.Idx) (q : dot_S2x1024x1024_S2x1024x16_S2x1024x16_2_1_1_2_0_0.contr.Idx) :
    (dot_S2x1024x1024_S2x1024x16_S2x1024x16_2_1_1_2_0_0.rhsIdx i q 1).val = (q ⟨0, by decide⟩).val :=
  dot_S2x1024x1024_S2x1024x16_S2x1024x16_2_1_1_2_0_0.rhsIdx_val_of_single rfl i q
theorem rhs_hyperedges_2 (i : S2x1024x16.Idx) (q : dot_S2x1024x1024_S2x1024x16_S2x1024x16_2_1_1_2_0_0.contr.Idx) :
    (dot_S2x1024x1024_S2x1024x16_S2x1024x16_2_1_1_2_0_0.rhsIdx i q 2).val = (i 2).val := by
  unfold DotDims.rhsIdx
  rw [dif_neg (show ¬(2 : Fin S2x1024x16.rank) ∈ dot_S2x1024x1024_S2x1024x16_S2x1024x16_2_1_1_2_0_0.rhsBatch by decide), dif_pos (show (2 : Fin S2x1024x16.rank) ∈ dot_S2x1024x1024_S2x1024x16_S2x1024x16_2_1_1_2_0_0.rhsNonContracting by decide)]
  rfl

section Dots
variable {φ₁ φ₂ : FTy}

/-- The first pass's product contracts the vertices: at (n, e, c) it is Σ_v l n v e · r n v c. -/
theorem matmul_vertices_apply (l : FVec Ideal S2x1024x1024 φ₁) (r : FVec Ideal S2x1024x16 φ₂)
    (n : Fin 2) (e : Fin 1024) (c : Fin 16) :
    matmul (F := Ideal) dot_S2x1024x1024_S2x1024x16_S2x1024x16_1_1_2_2_0_0 none l r (constant S2x1024x16 .f32 0x00000000#32) (ix3 n e c)
      = ∑ v : Fin 1024, l (ix3 n v e) * r (ix3 n v c) := by
  simp only [matmul]
  rw [Ideal.matmul_constant_zero_apply, ← Equiv.sum_comp (contrEquiv1 dot_S2x1024x1024_S2x1024x16_S2x1024x16_1_1_2_2_0_0 1024 rfl rfl).symm]
  refine Finset.sum_congr rfl fun k _ => ?_
  have hk := contrEquiv1_symm_val dot_S2x1024x1024_S2x1024x16_S2x1024x16_1_1_2_2_0_0 1024 rfl rfl k
  have el : dot_S2x1024x1024_S2x1024x16_S2x1024x16_1_1_2_2_0_0.lhsIdx (ix3 n e c) ((contrEquiv1 dot_S2x1024x1024_S2x1024x16_S2x1024x16_1_1_2_2_0_0 1024 rfl rfl).symm k) = ix3 n k e := funext fun a => Fin.ext (by
    match a with
    | ⟨0, _⟩ => exact lhs_vertices_0 _ _
    | ⟨1, _⟩ => exact (lhs_vertices_1 _ _).trans hk
    | ⟨2, _⟩ => exact lhs_vertices_2 _ _)
  have er : dot_S2x1024x1024_S2x1024x16_S2x1024x16_1_1_2_2_0_0.rhsIdx (ix3 n e c) ((contrEquiv1 dot_S2x1024x1024_S2x1024x16_S2x1024x16_1_1_2_2_0_0 1024 rfl rfl).symm k) = ix3 n k c := funext fun a => Fin.ext (by
    match a with
    | ⟨0, _⟩ => exact rhs_vertices_0 _ _
    | ⟨1, _⟩ => exact (rhs_vertices_1 _ _).trans hk
    | ⟨2, _⟩ => exact rhs_vertices_2 _ _)
  rw [el, er]

/-- The second pass's product contracts the hyperedges: at (n, v, c) it is Σ_e l n v e · r n e c. -/
theorem matmul_hyperedges_apply (l : FVec Ideal S2x1024x1024 φ₁) (r : FVec Ideal S2x1024x16 φ₂)
    (n : Fin 2) (v : Fin 1024) (c : Fin 16) :
    matmul (F := Ideal) dot_S2x1024x1024_S2x1024x16_S2x1024x16_2_1_1_2_0_0 none l r (constant S2x1024x16 .f32 0x00000000#32) (ix3 n v c)
      = ∑ e : Fin 1024, l (ix3 n v e) * r (ix3 n e c) := by
  simp only [matmul]
  rw [Ideal.matmul_constant_zero_apply, ← Equiv.sum_comp (contrEquiv1 dot_S2x1024x1024_S2x1024x16_S2x1024x16_2_1_1_2_0_0 1024 rfl rfl).symm]
  refine Finset.sum_congr rfl fun k _ => ?_
  have hk := contrEquiv1_symm_val dot_S2x1024x1024_S2x1024x16_S2x1024x16_2_1_1_2_0_0 1024 rfl rfl k
  have el : dot_S2x1024x1024_S2x1024x16_S2x1024x16_2_1_1_2_0_0.lhsIdx (ix3 n v c) ((contrEquiv1 dot_S2x1024x1024_S2x1024x16_S2x1024x16_2_1_1_2_0_0 1024 rfl rfl).symm k) = ix3 n v k := funext fun a => Fin.ext (by
    match a with
    | ⟨0, _⟩ => exact lhs_hyperedges_0 _ _
    | ⟨1, _⟩ => exact lhs_hyperedges_1 _ _
    | ⟨2, _⟩ => exact (lhs_hyperedges_2 _ _).trans hk)
  have er : dot_S2x1024x1024_S2x1024x16_S2x1024x16_2_1_1_2_0_0.rhsIdx (ix3 n v c) ((contrEquiv1 dot_S2x1024x1024_S2x1024x16_S2x1024x16_2_1_1_2_0_0 1024 rfl rfl).symm k) = ix3 n k c := funext fun a => Fin.ext (by
    match a with
    | ⟨0, _⟩ => exact rhs_hyperedges_0 _ _
    | ⟨1, _⟩ => exact (rhs_hyperedges_1 _ _).trans hk
    | ⟨2, _⟩ => exact rhs_hyperedges_2 _ _)
  rw [el, er]

end Dots

/-! ## The initial values -/

/-- The first pass's contraction accumulator starts at zero. -/
theorem k0_pay1_apply (j : S2x1024x16.Idx) : k0_pay1 (F := Ideal) j = 0 := Ideal.ofBits_zero_f32
/-- The first pass's degree accumulator starts at zero. -/
theorem k0_pay2_apply (j : S2x1024.Idx) : k0_pay2 (F := Ideal) j = 0 := Ideal.ofBits_zero_f32
/-- The second pass's contraction accumulator starts at zero. -/
theorem k1_pay1_apply (j : S2x1024x16.Idx) : k1_pay1 (F := Ideal) j = 0 := Ideal.ofBits_zero_f32
/-- The second pass's degree accumulator starts at zero. -/
theorem k1_pay2_apply (j : S2x1024.Idx) : k1_pay2 (F := Ideal) j = 0 := Ideal.ofBits_zero_f32

/-! ## The first pass -/

/-- A step of the first pass adds the tile's contraction over the vertices to the accumulator. -/
theorem k0_pay3_apply (h : Vec Ideal S2x1024x1024 .f32) (x s5 : Vec Ideal S2x1024x16 .f32)
    (n : Fin 2) (e : Fin 1024) (c : Fin 16) :
    k0_pay3 (F := Ideal) h x s5 (ix3 n e c) = s5 (ix3 n e c) + ∑ v : Fin 1024, h (ix3 n v e) * x (ix3 n v c) := by
  unfold k0_pay3
  refine (congrFun (shapeCast_self _ _) _).trans ?_
  refine congrArg (s5 (ix3 n e c) + ·) ?_
  exact matmul_vertices_apply (φ₁ := .bf16) (φ₂ := .bf16) _ _ n e c

/-- A step of the first pass adds the tile's column sums to the degree accumulator. -/
theorem k0_pay4_apply (h : Vec Ideal S2x1024x1024 .f32) (s6 : Vec Ideal S2x1024 .f32) (n : Fin 2) (e : Fin 1024) :
    k0_pay4 (F := Ideal) h s6 (ix2 n e) = s6 (ix2 n e) + ∑ v : Fin 1024, h (ix3 n v e) := by
  unfold k0_pay4
  refine (congrFun (shapeCast_self _ _) _).trans ?_
  refine congrArg (s6 (ix2 n e) + ·) ?_
  refine (Ideal.multiReduction_add_single (φ := .f32) h _ reduces_S2x1024x1024_S2x1024 _ _ (ix2 n e)).trans ?_
  refine Finset.sum_congr rfl fun k _ => ?_
  exact congrArg h (funext fun a => Fin.ext (by match a with | ⟨0, _⟩ => rfl | ⟨1, _⟩ => rfl | ⟨2, _⟩ => rfl))

/-- The last step of the first pass divides the accumulator by the degree, entry by entry. -/
theorem k0_pay5_apply (s5 : Vec Ideal S2x1024x16 .f32) (s6 : Vec Ideal S2x1024 .f32) (n : Fin 2) (e : Fin 1024) (c : Fin 16) :
    k0_pay5 (F := Ideal) s5 s6 (ix3 n e c) = Ideal.div (s5 (ix3 n e c)) (s6 (ix2 n e)) := by
  unfold k0_pay5
  refine congrArg (Ideal.div (s5 (ix3 n e c))) ?_
  refine (broadcastTo_ab1_abc_apply _ _ n e c).trans ?_
  exact shapeCast_ab_ab1_apply _ _ n e 0

/-! ## The second pass -/

/-- A step of the second pass adds the tile's contraction over the hyperedges to the accumulator. -/
theorem k1_pay3_apply (h : Vec Ideal S2x1024x1024 .f32) (ef s5 : Vec Ideal S2x1024x16 .f32)
    (n : Fin 2) (v : Fin 1024) (c : Fin 16) :
    k1_pay3 (F := Ideal) h ef s5 (ix3 n v c) = s5 (ix3 n v c) + ∑ e : Fin 1024, h (ix3 n v e) * ef (ix3 n e c) := by
  unfold k1_pay3
  refine (congrFun (shapeCast_self _ _) _).trans ?_
  refine congrArg (s5 (ix3 n v c) + ·) ?_
  refine (matmul_hyperedges_apply (φ₁ := .bf16) (φ₂ := .bf16) _ _ n v c).trans ?_
  refine Finset.sum_congr rfl fun k _ => congrArg (h (ix3 n v k) * ·) ?_
  exact congrFun (shapeCast_self ef _) _

/-- A step of the second pass adds the tile's row sums to the degree accumulator. -/
theorem k1_pay4_apply (h : Vec Ideal S2x1024x1024 .f32) (s6 : Vec Ideal S2x1024 .f32) (n : Fin 2) (v : Fin 1024) :
    k1_pay4 (F := Ideal) h s6 (ix2 n v) = s6 (ix2 n v) + ∑ e : Fin 1024, h (ix3 n v e) := by
  unfold k1_pay4
  refine (congrFun (shapeCast_self _ _) _).trans ?_
  refine congrArg (s6 (ix2 n v) + ·) ?_
  refine (Ideal.multiReduction_add_single (φ := .f32) h _ reduces_S2x1024x1024_S2x1024_2 _ _ (ix2 n v)).trans ?_
  refine Finset.sum_congr rfl fun k _ => ?_
  exact congrArg h (funext fun a => Fin.ext (by match a with | ⟨0, _⟩ => rfl | ⟨1, _⟩ => rfl | ⟨2, _⟩ => rfl))

/-- The last step of the second pass divides the accumulator by the degree, entry by entry. -/
theorem k1_pay5_apply (s5 : Vec Ideal S2x1024x16 .f32) (s6 : Vec Ideal S2x1024 .f32) (n : Fin 2) (v : Fin 1024) (c : Fin 16) :
    k1_pay5 (F := Ideal) s5 s6 (ix3 n v c) = Ideal.div (s5 (ix3 n v c)) (s6 (ix2 n v)) := by
  unfold k1_pay5
  refine congrArg (Ideal.div (s5 (ix3 n v c))) ?_
  refine (broadcastTo_ab1_abc_apply _ _ n v c).trans ?_
  exact shapeCast_ab_ab1_apply _ _ n v 0

end Cert.KernelIdeal.Payloads

end
-- ==== Proof.Spec.lean ====
/-
  The hypergraph convolution as one function of the two argument arrays, index by index on the extended reals.

  With x : [2, 8192, 16] (vertex features) and H : [2, 8192, 8192] (incidence weights, vertex × hyperedge):
    de n e = Σ_v H n v e                         (hyperedge degree)
    dv n v = Σ_e H n v e                         (vertex degree)
    edge n e c = (Σ_v H n v e · x n v c) / de n e    (vertices → hyperedges, degree-normalised)
    conv n v c = (Σ_e H n v e · edge n e c) / dv n v  (hyperedges → vertices, degree-normalised)
  The quotient is the extended reals' (Ideal.div). This is the arrangement the kernel computes: whole sums
  first, one division after; the reference divides every entry of H by the degree before contracting.
-/
import Idealize.ShloMosaic.PureOps.Ideal
import Idealize.ShloMosaic.Lib.ValueIdx

noncomputable section

namespace Cert.Spec

open Idealize.ShloMosaic Idealize.ShloMosaic.ValueIdx

/-- The feature arrays' shape, [2, 8192, 16]. -/
abbrev SX : Shape := ⟨3, ![2, 8192, 16]⟩
/-- The incidence array's shape, [2, 8192, 8192]. -/
abbrev SH : Shape := ⟨3, ![2, 8192, 8192]⟩

/-- Hyperedge degree: the column sums of H. -/
def de (H : SH.Idx → EReal) (n : Fin 2) (e : Fin 8192) : EReal := ∑ v : Fin 8192, H (ix3 n v e)
/-- Vertex degree: the row sums of H. -/
def dv (H : SH.Idx → EReal) (n : Fin 2) (v : Fin 8192) : EReal := ∑ e : Fin 8192, H (ix3 n v e)

/-- Hyperedge features: the degree-normalised aggregate of the vertices of each hyperedge. -/
def edge (X : SX.Idx → EReal) (H : SH.Idx → EReal) : SX.Idx → EReal := fun j =>
  Ideal.div (∑ v : Fin 8192, H (ix3 (j 0) v (j 1)) * X (ix3 (j 0) v (j 2))) (de H (j 0) (j 1))

/-- The convolution: the degree-normalised aggregate of the hyperedges of each vertex. -/
def conv (X : SX.Idx → EReal) (H : SH.Idx → EReal) : SX.Idx → EReal := fun j =>
  Ideal.div (∑ e : Fin 8192, H (ix3 (j 0) (j 1) e) * edge X H (ix3 (j 0) e (j 2))) (dv H (j 0) (j 1))

/-- The second aggregation alone, over any hyperedge features EF: what the second kernel computes from its two inputs. -/
def convOf (EF : SX.Idx → EReal) (H : SH.Idx → EReal) : SX.Idx → EReal := fun j =>
  Ideal.div (∑ e : Fin 8192, H (ix3 (j 0) (j 1) e) * EF (ix3 (j 0) e (j 2))) (dv H (j 0) (j 1))

/-- The convolution is the second aggregation of the hyperedge features. -/
theorem conv_eq (X : SX.Idx → EReal) (H : SH.Idx → EReal) : conv X H = convOf (edge X H) H := rfl

end Cert.Spec

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.KIValue0.lean ====
/-
  The first pass (vertices → hyperedges) over its whole grid, read as values: the output array ends holding the
  hyperedge features of the specification.

  The grid is 8 output tiles × 8 reduction tiles; position t is reduction tile t mod 8 of output tile t div 8. At
  position t the body is handed rows (t mod 8)·1024 … of x and the block of H at those rows and columns
  (t div 8)·1024 …. The two accumulators restart at the positions ≡ 0 (mod 8) and otherwise add the block's contraction
  and the block's column sums, so after position t they hold the sums over the reduction tiles 0 … t mod 8:
      Σ_{j ≤ t mod 8} Σ_{r < 1024} H n (j·1024 + r) e · x n (j·1024 + r) c     and     Σ_{j ≤ t mod 8} Σ_{r < 1024} H n (j·1024 + r) e
  (no finiteness is needed: in the extended reals 0 + a = a and addition is associative and commutative). At a position
  ≡ 7 (mod 8) these are the sums over all 8192 vertices, and the block written back is their quotient: the
  specification's hyperedge features at rows (t div 8)·1024 …. The eight blocks written back tile the output array.
-/
import proofs.«135059_j24292335026751_1_alg».proof.Proof.KIRegion0
import proofs.«135059_j24292335026751_1_alg».proof.Proof.KIPayloads
import proofs.«135059_j24292335026751_1_alg».proof.Proof.Spec
import proofs.«135059_j24292335026751_1_alg».proof.Proof.LibSumRuns

noncomputable section

namespace Cert.KernelIdeal.Value0

open Idealize.ShloMosaic Idealize.ShloMosaic.ValueIdx Idealize.ShloMosaic.TcCoe Cert.KernelIdeal Cert.KernelIdeal.Gen
open Idealize.SL.Sem
open Cert.KernelIdeal.Frame Cert.KernelIdeal.Payloads

/-! ## The grid's index maps, and sums over tiles -/

/-- The index maps over the grid: at position t the x block is row tile t mod 8, the H block is (row tile t mod 8,
    column tile t div 8), the output block is row tile t div 8. -/
theorem idx_facts0 : ∀ t : Fin cfg0.N,
    win0_0.index t (0 : Fin 3) = 0 ∧ win0_0.index t (1 : Fin 3) = t.val % 8 ∧ win0_0.index t (2 : Fin 3) = 0
    ∧ win0_1.index t (0 : Fin 3) = 0 ∧ win0_1.index t (1 : Fin 3) = t.val % 8 ∧ win0_1.index t (2 : Fin 3) = t.val / 8
    ∧ win0_2.index t (0 : Fin 3) = 0 ∧ win0_2.index t (1 : Fin 3) = t.val / 8 ∧ win0_2.index t (2 : Fin 3) = 0 :=
  (by decide +kernel : ∀ t : Fin grid0.N, _)

/-- A sum over 8 consecutive tiles of 1024 is the sum over all 8192. -/
theorem sum_tiles {M : Type*} [AddCommMonoid M] (f : ℕ → M) :
    ∑ j ∈ Finset.range 8, ∑ r : Fin 1024, f (j * 1024 + r.val) = ∑ v : Fin 8192, f v.val := by
  rw [Finset.sum_range]
  exact (Cert.Lib.SumRuns.sum_runs 8 1024 (fun k : Fin (8 * 1024) => f k.val)).symm

/-- x read at a row given as a natural number (zero past the array). -/
def Xn (X : Cert.Spec.SX.Idx → EReal) (n : Fin 2) (r : ℕ) (c : Fin 16) : EReal :=
  if h : r < 8192 then X (ix3 n ⟨r, h⟩ c) else 0
/-- H read at a row and a column given as natural numbers (zero past the array). -/
def Hn (H : Cert.Spec.SH.Idx → EReal) (n : Fin 2) (r s : ℕ) : EReal :=
  if h : r < 8192 ∧ s < 8192 then H (ix3 n ⟨r, h.1⟩ ⟨s, h.2⟩) else 0

theorem Xn_fin (X : Cert.Spec.SX.Idx → EReal) (n : Fin 2) (v : Fin 8192) (c : Fin 16) : Xn X n v.val c = X (ix3 n v c) := by
  unfold Xn; rw [dif_pos v.isLt]
theorem Hn_fin (H : Cert.Spec.SH.Idx → EReal) (n : Fin 2) (v e : Fin 8192) : Hn H n v.val e.val = H (ix3 n v e) := by
  unfold Hn; rw [dif_pos ⟨v.isLt, e.isLt⟩]

/-- The contraction over the reduction tiles below k, for output tile q, at (n, e', c). -/
def S5 (X : Cert.Spec.SX.Idx → EReal) (H : Cert.Spec.SH.Idx → EReal) (q k : ℕ) (n : Fin 2) (e' : Fin 1024) (c : Fin 16) : EReal :=
  ∑ j ∈ Finset.range k, ∑ r : Fin 1024, Hn H n (j * 1024 + r.val) (q * 1024 + e'.val) * Xn X n (j * 1024 + r.val) c
/-- The column sums over the reduction tiles below k, for output tile q, at (n, e'). -/
def S6 (H : Cert.Spec.SH.Idx → EReal) (q k : ℕ) (n : Fin 2) (e' : Fin 1024) : EReal :=
  ∑ j ∈ Finset.range k, ∑ r : Fin 1024, Hn H n (j * 1024 + r.val) (q * 1024 + e'.val)

/-- Over all eight reduction tiles the contraction is the specification's, over all 8192 vertices. -/
theorem S5_all (X : Cert.Spec.SX.Idx → EReal) (H : Cert.Spec.SH.Idx → EReal) (n : Fin 2) (e : Fin 8192) (q : ℕ) (e' : Fin 1024)
    (he : e.val = q * 1024 + e'.val) (c : Fin 16) :
    S5 X H q 8 n e' c = ∑ v : Fin 8192, H (ix3 n v e) * X (ix3 n v c) := by
  unfold S5
  rw [sum_tiles (fun r => Hn H n r (q * 1024 + e'.val) * Xn X n r c)]
  refine Finset.sum_congr rfl fun v _ => ?_
  rw [← he, Hn_fin, Xn_fin]

/-- Over all eight reduction tiles the column sums are the hyperedge degree. -/
theorem S6_all (H : Cert.Spec.SH.Idx → EReal) (n : Fin 2) (e : Fin 8192) (q : ℕ) (e' : Fin 1024)
    (he : e.val = q * 1024 + e'.val) : S6 H q 8 n e' = Cert.Spec.de H n e := by
  unfold S6 Cert.Spec.de
  rw [sum_tiles (fun r => Hn H n r (q * 1024 + e'.val))]
  refine Finset.sum_congr rfl fun v _ => ?_
  rw [← he, Hn_fin]

section Region
variable (V : (c : Dev nD) → (b : Ref sig .tc) → Buf (Elt Ideal) ((c : Thread nD τ).loc b)) (c : Dev nD)

/-! ## The blocks the body is handed -/

/-- The x block at position t: rows (t mod 8)·1024 … of x. -/
theorem xblk_at (t : Fin cfg0.N) (n : Fin 2) (r : Fin 1024) (cc : Fin 16) :
    iblk0 (F := Ideal) V c 0 t (ix3 n r cc) = Xn (V c main_arg0) n ((t.val % 8) * 1024 + r.val) cc := by
  obtain ⟨e0, e1, e2, -⟩ := idx_facts0 t
  have hr : (t.val % 8) * 1024 + r.val < 8192 := by have := r.isLt; omega
  unfold Xn; rw [dif_pos hr]
  show V c main_arg0 (((cfg0.win 0).blk t).view.emb (ix3 n r cc)) = V c main_arg0 (ix3 n ⟨_, hr⟩ cc)
  refine congrArg (V c main_arg0) (funext fun a => Fin.ext ?_)
  match a with
  | ⟨0, _⟩ => show win0_0.index t (0 : Fin 3) * 2 + 1 * n.val = n.val; rw [e0]; omega
  | ⟨1, _⟩ => show win0_0.index t (1 : Fin 3) * 1024 + 1 * r.val = (t.val % 8) * 1024 + r.val; rw [e1]; omega
  | ⟨2, _⟩ => show win0_0.index t (2 : Fin 3) * 16 + 1 * cc.val = cc.val; rw [e2]; omega

/-- The H block at position t: rows (t mod 8)·1024 …, columns (t div 8)·1024 … of H. -/
theorem hblk_at (t : Fin cfg0.N) (n : Fin 2) (r : Fin 1024) (e' : Fin 1024) :
    iblk0 (F := Ideal) V c 1 t (ix3 n r e') = Hn (V c main_arg1) n ((t.val % 8) * 1024 + r.val) ((t.val / 8) * 1024 + e'.val) := by
  obtain ⟨-, -, -, e0, e1, e2, -⟩ := idx_facts0 t
  have hN : cfg0.N = 64 := N_0
  have ht : t.val < 64 := lt_of_lt_of_eq t.isLt hN
  have hr : (t.val % 8) * 1024 + r.val < 8192 := by have := r.isLt; omega
  have hs : (t.val / 8) * 1024 + e'.val < 8192 := by have := e'.isLt; omega
  unfold Hn; rw [dif_pos ⟨hr, hs⟩]
  show V c main_arg1 (((cfg0.win 1).blk t).view.emb (ix3 n r e')) = V c main_arg1 (ix3 n ⟨_, hr⟩ ⟨_, hs⟩)
  refine congrArg (V c main_arg1) (funext fun a => Fin.ext ?_)
  match a with
  | ⟨0, _⟩ => show win0_1.index t (0 : Fin 3) * 2 + 1 * n.val = n.val; rw [e0]; omega
  | ⟨1, _⟩ => show win0_1.index t (1 : Fin 3) * 1024 + 1 * r.val = (t.val % 8) * 1024 + r.val; rw [e1]; omega
  | ⟨2, _⟩ => show win0_1.index t (2 : Fin 3) * 1024 + 1 * e'.val = (t.val / 8) * 1024 + e'.val; rw [e2]; omega

/-! ## The accumulators after every position -/

/-- One position's effect on the contraction accumulator, at an index: it restarts from zero at the positions ≡ 0 (mod 8),
    and adds the block's contraction. -/
theorem acc5_step (t : Fin cfg0.N) (n : Fin 2) (e' : Fin 1024) (cc : Fin 16) :
    (accAt0 (F := Ideal) V c t.val).1 (ix3 n e' cc)
      = (if t.val % 8 = 0 then 0 else (accAt0 (F := Ideal) V c (t.val - 1)).1 (ix3 n e' cc))
        + ∑ r : Fin 1024, Hn (V c main_arg1) n ((t.val % 8) * 1024 + r.val) ((t.val / 8) * 1024 + e'.val)
            * Xn (V c main_arg0) n ((t.val % 8) * 1024 + r.val) cc := by
  rw [← acc_step0 V c t (accAt0 V c (t.val - 1)).1 (accAt0 V c (t.val - 1)).2 (fun _ => rfl)]
  unfold stepAt0 acc5_0
  refine (k0_pay3_apply _ _ _ n e' cc).trans ?_
  refine congr (congrArg HAdd.hAdd ?_) (Finset.sum_congr rfl fun r _ => by rw [hblk_at, xblk_at])
  by_cases h0 : t.val % 8 = 0
  · rw [if_pos ((hcond0_0 t).mpr h0), if_pos h0]; exact k0_pay1_apply _
  · rw [if_neg (fun h => h0 ((hcond0_0 t).mp h)), if_neg h0]

/-- One position's effect on the degree accumulator, at an index. -/
theorem acc6_step (t : Fin cfg0.N) (n : Fin 2) (e' : Fin 1024) :
    (accAt0 (F := Ideal) V c t.val).2 (ix2 n e')
      = (if t.val % 8 = 0 then 0 else (accAt0 (F := Ideal) V c (t.val - 1)).2 (ix2 n e'))
        + ∑ r : Fin 1024, Hn (V c main_arg1) n ((t.val % 8) * 1024 + r.val) ((t.val / 8) * 1024 + e'.val) := by
  rw [← acc_step0 V c t (accAt0 V c (t.val - 1)).1 (accAt0 V c (t.val - 1)).2 (fun _ => rfl)]
  unfold stepAt0 acc6_0
  refine (k0_pay4_apply _ _ n e').trans ?_
  refine congr (congrArg HAdd.hAdd ?_) (Finset.sum_congr rfl fun r _ => by rw [hblk_at])
  by_cases h0 : t.val % 8 = 0
  · rw [if_pos ((hcond0_0 t).mpr h0), if_pos h0]; exact k0_pay2_apply _
  · rw [if_neg (fun h => h0 ((hcond0_0 t).mp h)), if_neg h0]

/-- After position m the contraction accumulator holds the contraction over the reduction tiles 0 … m mod 8. -/
theorem acc5_at (m : ℕ) : ∀ (hm : m < 64) (n : Fin 2) (e' : Fin 1024) (cc : Fin 16),
    (accAt0 (F := Ideal) V c m).1 (ix3 n e' cc) = S5 (V c main_arg0) (V c main_arg1) (m / 8) (m % 8 + 1) n e' cc := by
  induction m using Nat.strong_induction_on with
  | _ m ih =>
    intro hm n e' cc
    have hN : cfg0.N = 64 := N_0
    have hstep := acc5_step V c ⟨m, by omega⟩ n e' cc
    simp only [] at hstep
    rw [hstep]
    unfold S5
    rw [Finset.sum_range_succ]
    by_cases h0 : m % 8 = 0
    · rw [if_pos h0, h0, Finset.sum_range_zero]
    · rw [if_neg h0, ih (m - 1) (by omega) (by omega) n e' cc]
      unfold S5
      rw [show (m - 1) / 8 = m / 8 by omega, show (m - 1) % 8 + 1 = m % 8 by omega]

/-- After position m the degree accumulator holds the column sums over the reduction tiles 0 … m mod 8. -/
theorem acc6_at (m : ℕ) : ∀ (hm : m < 64) (n : Fin 2) (e' : Fin 1024),
    (accAt0 (F := Ideal) V c m).2 (ix2 n e') = S6 (V c main_arg1) (m / 8) (m % 8 + 1) n e' := by
  induction m using Nat.strong_induction_on with
  | _ m ih =>
    intro hm n e'
    have hN : cfg0.N = 64 := N_0
    have hstep := acc6_step V c ⟨m, by omega⟩ n e'
    simp only [] at hstep
    rw [hstep]
    unfold S6
    rw [Finset.sum_range_succ]
    by_cases h0 : m % 8 = 0
    · rw [if_pos h0, h0, Finset.sum_range_zero]
    · rw [if_neg h0, ih (m - 1) (by omega) (by omega) n e']
      unfold S6
      rw [show (m - 1) / 8 = m / 8 by omega, show (m - 1) % 8 + 1 = m % 8 by omega]

/-! ## From the blocks written back to the array -/

/-- What a last reduction tile writes back is its block of the specification's hyperedge features. -/
theorem flushed2_eq (t : Fin cfg0.N) (hf : (cfg0.win 2).flush t = true) :
    (dat0 (F := Ideal) V c).flushed 2 t
      = ((cfg0.win 2).blk t).view.read (Elt Ideal) (Cert.Spec.edge (V c main_arg0) (V c main_arg1)) := by
  have h7 : t.val % 8 = 7 := (flush0_2 t).mp hf
  have hN : cfg0.N = 64 := N_0
  have ht : t.val < 64 := lt_of_lt_of_eq t.isLt hN
  show (cfg0.win 2).cut (grid0.coords t) ((dat0 (F := Ideal) V c).after 2 t) = _
  rw [after0_2]
  funext j
  obtain ⟨n, e', cc, rfl⟩ : ∃ (n : Fin 2) (e' : Fin 1024) (cc : Fin 16), j = ix3 n e' cc := ⟨j 0, j 1, j 2, eq_ix3 j⟩
  obtain ⟨-, -, -, -, -, -, e0, e1, e2⟩ := idx_facts0 t
  have hs : (t.val / 8) * 1024 + e'.val < 8192 := by have := e'.isLt; omega
  have hemb : ((cfg0.win 2).blk t).view.emb (ix3 n e' cc) = ix3 n (⟨(t.val / 8) * 1024 + e'.val, hs⟩ : Fin 8192) cc := by
    funext a; apply Fin.ext
    match a with
    | ⟨0, _⟩ => show win0_2.index t (0 : Fin 3) * 2 + 1 * n.val = n.val; rw [e0]; omega
    | ⟨1, _⟩ => show win0_2.index t (1 : Fin 3) * 1024 + 1 * e'.val = (t.val / 8) * 1024 + e'.val; rw [e1]; omega
    | ⟨2, _⟩ => show win0_2.index t (2 : Fin 3) * 16 + 1 * cc.val = cc.val; rw [e2]; omega
  show k0_pay5 (accAt0 (F := Ideal) V c t.val).1 (accAt0 (F := Ideal) V c t.val).2 (ix3 n e' cc)
    = Cert.Spec.edge (V c main_arg0) (V c main_arg1) (((cfg0.win 2).blk t).view.emb (ix3 n e' cc))
  rw [hemb, k0_pay5_apply, acc5_at V c t.val ht, acc6_at V c t.val ht, h7]
  show Ideal.div (S5 _ _ (t.val / 8) 8 n e' cc) (S6 _ (t.val / 8) 8 n e') = Ideal.div _ (Cert.Spec.de _ n ⟨_, hs⟩)
  rw [S5_all (V c main_arg0) (V c main_arg1) n ⟨_, hs⟩ (t.val / 8) e' rfl cc, S6_all (V c main_arg1) n ⟨_, hs⟩ (t.val / 8) e' rfl]

/-- An index of the output array is in position t's block iff each coordinate is in the block's range on its axis. -/
theorem mem_blk2 (t : Fin cfg0.N) (i : S2x8192x16.Idx) :
    i ∈ ((cfg0.win 2).blk t).view.set ↔ ∀ a : Fin 3, win0_2.index t a * S2x1024x16.size a ≤ (i a).val ∧ (i a).val < win0_2.index t a * S2x1024x16.size a + S2x1024x16.size a := by
  show i ∈ ((View.whole main_v0).slice (win0_2.rect t)).set ↔ _
  rw [View.set_slice_whole, Rect.mem_set_unit]
  exact Iff.rfl

/-- Every index of the output array is in the block some last reduction tile writes back: row r is in the block of
    position 8·(r div 1024) + 7. -/
theorem cover2 (i : S2x8192x16.Idx) : ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 16 := (i 2).isLt
  have hN : cfg0.N = 64 := N_0
  have hlt : 8 * ((i 1).val / 1024) + 7 < cfg0.N := lt_of_lt_of_eq (by omega : 8 * ((i 1).val / 1024) + 7 < 64) hN.symm
  obtain ⟨-, -, -, -, -, -, e0, e1, e2⟩ := idx_facts0 ⟨8 * ((i 1).val / 1024) + 7, hlt⟩
  have e1' : win0_2.index ⟨8 * ((i 1).val / 1024) + 7, hlt⟩ (1 : Fin 3) = (i 1).val / 1024 := by
    rw [e1]; show (8 * ((i 1).val / 1024) + 7) / 8 = (i 1).val / 1024; omega
  refine ⟨⟨8 * ((i 1).val / 1024) + 7, hlt⟩, (flush0_2 _).mpr (by show (8 * ((i 1).val / 1024) + 7) % 8 = 7; omega), ?_⟩
  rw [mem_blk2]
  intro a
  match a with
  | ⟨0, _⟩ => show win0_2.index _ (0 : Fin 3) * 2 ≤ (i 0).val ∧ (i 0).val < win0_2.index _ (0 : Fin 3) * 2 + 2; rw [e0]; omega
  | ⟨1, _⟩ => show win0_2.index _ (1 : Fin 3) * 1024 ≤ (i 1).val ∧ (i 1).val < win0_2.index _ (1 : Fin 3) * 1024 + 1024; rw [e1']; omega
  | ⟨2, _⟩ => show win0_2.index _ (2 : Fin 3) * 16 ≤ (i 2).val ∧ (i 2).val < win0_2.index _ (2 : Fin 3) * 16 + 16; rw [e2]; omega

/-- After the first pass the output array holds the specification's hyperedge features of the two argument arrays. -/
theorem edge_final :
    (dat0 (F := Ideal) V c).arrAt 2 cfg0.N = Cert.Spec.edge (V c main_arg0) (V c main_arg1) :=
  (dat0 (F := Ideal) V c).arrAt_eq_of_cover 2 _ (fun t hf => flushed2_eq V c t hf) (fun i => cover2 i)

end Region

end Cert.KernelIdeal.Value0

end
-- ==== Proof.KIValue1.lean ====
/-
  The second pass (hyperedges → vertices) over its whole grid, read as values: the output array ends holding the
  second aggregation of the specification, of whatever hyperedge features the pass is given.

  The grid is 8 output tiles × 8 reduction tiles; position t is reduction tile t mod 8 of output tile t div 8. At
  position t the body is handed the block of H at rows (t div 8)·1024 … and columns (t mod 8)·1024 …, and rows
  (t mod 8)·1024 … of the hyperedge features f. The two accumulators restart at the positions ≡ 0 (mod 8) and otherwise
  add the block's contraction and the block's row sums, so after position t they hold the sums over the reduction
  tiles 0 … t mod 8:
      Σ_{j ≤ t mod 8} Σ_{r < 1024} H n v (j·1024 + r) · f n (j·1024 + r) c     and     Σ_{j ≤ t mod 8} Σ_{r < 1024} H n v (j·1024 + r)
  (no finiteness is needed: in the extended reals 0 + a = a and addition is associative and commutative). At a position
  ≡ 7 (mod 8) these are the sums over all 8192 hyperedges, and the block written back is their quotient: the
  second aggregation at rows (t div 8)·1024 …. The eight blocks written back tile the output array.
-/
import proofs.«135059_j24292335026751_1_alg».proof.Proof.KIRegion1
import proofs.«135059_j24292335026751_1_alg».proof.Proof.KIPayloads
import proofs.«135059_j24292335026751_1_alg».proof.Proof.Spec
import proofs.«135059_j24292335026751_1_alg».proof.Proof.LibSumRuns

noncomputable section

namespace Cert.KernelIdeal.Value1

open Idealize.ShloMosaic Idealize.ShloMosaic.ValueIdx Idealize.ShloMosaic.TcCoe Cert.KernelIdeal Cert.KernelIdeal.Gen
open Idealize.SL.Sem
open Cert.KernelIdeal.Frame Cert.KernelIdeal.Payloads

/-! ## The grid's index maps, and sums over tiles -/

/-- The index maps over the grid: at position t the H block is (row tile t div 8, column tile t mod 8), the feature block
    is row tile t mod 8, the output block is row tile t div 8. -/
theorem idx_facts1 : ∀ t : Fin cfg1.N,
    win1_0.index t (0 : Fin 3) = 0 ∧ win1_0.index t (1 : Fin 3) = t.val / 8 ∧ win1_0.index t (2 : Fin 3) = t.val % 8
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val / 8 ∧ win1_2.index t (2 : Fin 3) = 0 :=
  (by decide +kernel : ∀ t : Fin grid1.N, _)

/-- A sum over 8 consecutive tiles of 1024 is the sum over all 8192. -/
theorem sum_tiles {M : Type*} [AddCommMonoid M] (f : ℕ → M) :
    ∑ j ∈ Finset.range 8, ∑ r : Fin 1024, f (j * 1024 + r.val) = ∑ v : Fin 8192, f v.val := by
  rw [Finset.sum_range]
  exact (Cert.Lib.SumRuns.sum_runs 8 1024 (fun k : Fin (8 * 1024) => f k.val)).symm

/-- The features read at a row given as a natural number (zero past the array). -/
def Fn (EF : Cert.Spec.SX.Idx → EReal) (n : Fin 2) (r : ℕ) (c : Fin 16) : EReal :=
  if h : r < 8192 then EF (ix3 n ⟨r, h⟩ c) else 0
/-- H read at a row and a column given as natural numbers (zero past the array). -/
def Hn (H : Cert.Spec.SH.Idx → EReal) (n : Fin 2) (r s : ℕ) : EReal :=
  if h : r < 8192 ∧ s < 8192 then H (ix3 n ⟨r, h.1⟩ ⟨s, h.2⟩) else 0

theorem Fn_fin (EF : Cert.Spec.SX.Idx → EReal) (n : Fin 2) (e : Fin 8192) (c : Fin 16) : Fn EF n e.val c = EF (ix3 n e c) := by
  unfold Fn; rw [dif_pos e.isLt]
theorem Hn_fin (H : Cert.Spec.SH.Idx → EReal) (n : Fin 2) (v e : Fin 8192) : Hn H n v.val e.val = H (ix3 n v e) := by
  unfold Hn; rw [dif_pos ⟨v.isLt, e.isLt⟩]

/-- The contraction over the reduction tiles below k, for output tile q, at (n, v', c). -/
def S5 (EF : Cert.Spec.SX.Idx → EReal) (H : Cert.Spec.SH.Idx → EReal) (q k : ℕ) (n : Fin 2) (v' : Fin 1024) (c : Fin 16) : EReal :=
  ∑ j ∈ Finset.range k, ∑ r : Fin 1024, Hn H n (q * 1024 + v'.val) (j * 1024 + r.val) * Fn EF n (j * 1024 + r.val) c
/-- The row sums over the reduction tiles below k, for output tile q, at (n, v'). -/
def S6 (H : Cert.Spec.SH.Idx → EReal) (q k : ℕ) (n : Fin 2) (v' : Fin 1024) : EReal :=
  ∑ j ∈ Finset.range k, ∑ r : Fin 1024, Hn H n (q * 1024 + v'.val) (j * 1024 + r.val)

/-- Over all eight reduction tiles the contraction is the specification's, over all 8192 hyperedges. -/
theorem S5_all (EF : Cert.Spec.SX.Idx → EReal) (H : Cert.Spec.SH.Idx → EReal) (n : Fin 2) (v : Fin 8192) (q : ℕ) (v' : Fin 1024)
    (hv : v.val = q * 1024 + v'.val) (c : Fin 16) :
    S5 EF H q 8 n v' c = ∑ e : Fin 8192, H (ix3 n v e) * EF (ix3 n e c) := by
  unfold S5
  rw [sum_tiles (fun r => Hn H n (q * 1024 + v'.val) r * Fn EF n r c)]
  refine Finset.sum_congr rfl fun e _ => ?_
  rw [← hv, Hn_fin, Fn_fin]

/-- Over all eight reduction tiles the row sums are the vertex degree. -/
theorem S6_all (H : Cert.Spec.SH.Idx → EReal) (n : Fin 2) (v : Fin 8192) (q : ℕ) (v' : Fin 1024)
    (hv : v.val = q * 1024 + v'.val) : S6 H q 8 n v' = Cert.Spec.dv H n v := by
  unfold S6 Cert.Spec.dv
  rw [sum_tiles (fun r => Hn H n (q * 1024 + v'.val) r)]
  refine Finset.sum_congr rfl fun e _ => ?_
  rw [← hv, Hn_fin]

section Region
variable (V : (c : Dev nD) → (b : Ref sig .tc) → Buf (Elt Ideal) ((c : Thread nD τ).loc b)) (c : Dev nD)

/-! ## The blocks the body is handed -/

/-- The feature block at position t: rows (t mod 8)·1024 … of the hyperedge features. -/
theorem fblk_at (t : Fin cfg1.N) (n : Fin 2) (r : Fin 1024) (cc : Fin 16) :
    iblk1 (F := Ideal) V c 1 t (ix3 n r cc) = Fn (V c main_v0) n ((t.val % 8) * 1024 + r.val) cc := by
  obtain ⟨-, -, -, e0, e1, e2, -⟩ := idx_facts1 t
  have hr : (t.val % 8) * 1024 + r.val < 8192 := by have := r.isLt; omega
  unfold Fn; rw [dif_pos hr]
  show V c main_v0 (((cfg1.win 1).blk t).view.emb (ix3 n r cc)) = V c main_v0 (ix3 n ⟨_, hr⟩ cc)
  refine congrArg (V c main_v0) (funext fun a => Fin.ext ?_)
  match a with
  | ⟨0, _⟩ => show win1_1.index t (0 : Fin 3) * 2 + 1 * n.val = n.val; rw [e0]; omega
  | ⟨1, _⟩ => show win1_1.index t (1 : Fin 3) * 1024 + 1 * r.val = (t.val % 8) * 1024 + r.val; rw [e1]; omega
  | ⟨2, _⟩ => show win1_1.index t (2 : Fin 3) * 16 + 1 * cc.val = cc.val; rw [e2]; omega

/-- The H block at position t: rows (t div 8)·1024 …, columns (t mod 8)·1024 … of H. -/
theorem hblk_at (t : Fin cfg1.N) (n : Fin 2) (v' : Fin 1024) (r : Fin 1024) :
    iblk1 (F := Ideal) V c 0 t (ix3 n v' r) = Hn (V c main_arg1) n ((t.val / 8) * 1024 + v'.val) ((t.val % 8) * 1024 + r.val) := by
  obtain ⟨e0, e1, e2, -⟩ := idx_facts1 t
  have hN : cfg1.N = 64 := N_1
  have ht : t.val < 64 := lt_of_lt_of_eq t.isLt hN
  have hr : (t.val / 8) * 1024 + v'.val < 8192 := by have := v'.isLt; omega
  have hs : (t.val % 8) * 1024 + r.val < 8192 := by have := r.isLt; omega
  unfold Hn; rw [dif_pos ⟨hr, hs⟩]
  show V c main_arg1 (((cfg1.win 0).blk t).view.emb (ix3 n v' r)) = V c main_arg1 (ix3 n ⟨_, hr⟩ ⟨_, hs⟩)
  refine congrArg (V c main_arg1) (funext fun a => Fin.ext ?_)
  match a with
  | ⟨0, _⟩ => show win1_0.index t (0 : Fin 3) * 2 + 1 * n.val = n.val; rw [e0]; omega
  | ⟨1, _⟩ => show win1_0.index t (1 : Fin 3) * 1024 + 1 * v'.val = (t.val / 8) * 1024 + v'.val; rw [e1]; omega
  | ⟨2, _⟩ => show win1_0.index t (2 : Fin 3) * 1024 + 1 * r.val = (t.val % 8) * 1024 + r.val; rw [e2]; omega

/-! ## The accumulators after every position -/

/-- One position's effect on the contraction accumulator, at an index: it restarts from zero at the positions ≡ 0 (mod 8),
    and adds the block's contraction. -/
theorem acc5_step (t : Fin cfg1.N) (n : Fin 2) (v' : Fin 1024) (cc : Fin 16) :
    (accAt1 (F := Ideal) V c t.val).1 (ix3 n v' cc)
      = (if t.val % 8 = 0 then 0 else (accAt1 (F := Ideal) V c (t.val - 1)).1 (ix3 n v' cc))
        + ∑ r : Fin 1024, Hn (V c main_arg1) n ((t.val / 8) * 1024 + v'.val) ((t.val % 8) * 1024 + r.val)
            * Fn (V c main_v0) n ((t.val % 8) * 1024 + r.val) cc := by
  rw [← acc_step1 V c t (accAt1 V c (t.val - 1)).1 (accAt1 V c (t.val - 1)).2 (fun _ => rfl)]
  unfold stepAt1 acc5_1
  refine (k1_pay3_apply _ _ _ n v' cc).trans ?_
  refine congr (congrArg HAdd.hAdd ?_) (Finset.sum_congr rfl fun r _ => by rw [hblk_at, fblk_at])
  by_cases h0 : t.val % 8 = 0
  · rw [if_pos ((hcond1_0 t).mpr h0), if_pos h0]; exact k1_pay1_apply _
  · rw [if_neg (fun h => h0 ((hcond1_0 t).mp h)), if_neg h0]

/-- One position's effect on the degree accumulator, at an index. -/
theorem acc6_step (t : Fin cfg1.N) (n : Fin 2) (v' : Fin 1024) :
    (accAt1 (F := Ideal) V c t.val).2 (ix2 n v')
      = (if t.val % 8 = 0 then 0 else (accAt1 (F := Ideal) V c (t.val - 1)).2 (ix2 n v'))
        + ∑ r : Fin 1024, Hn (V c main_arg1) n ((t.val / 8) * 1024 + v'.val) ((t.val % 8) * 1024 + r.val) := by
  rw [← acc_step1 V c t (accAt1 V c (t.val - 1)).1 (accAt1 V c (t.val - 1)).2 (fun _ => rfl)]
  unfold stepAt1 acc6_1
  refine (k1_pay4_apply _ _ n v').trans ?_
  refine congr (congrArg HAdd.hAdd ?_) (Finset.sum_congr rfl fun r _ => by rw [hblk_at])
  by_cases h0 : t.val % 8 = 0
  · rw [if_pos ((hcond1_0 t).mpr h0), if_pos h0]; exact k1_pay2_apply _
  · rw [if_neg (fun h => h0 ((hcond1_0 t).mp h)), if_neg h0]

/-- After position m the contraction accumulator holds the contraction over the reduction tiles 0 … m mod 8. -/
theorem acc5_at (m : ℕ) : ∀ (hm : m < 64) (n : Fin 2) (v' : Fin 1024) (cc : Fin 16),
    (accAt1 (F := Ideal) V c m).1 (ix3 n v' cc) = S5 (V c main_v0) (V c main_arg1) (m / 8) (m % 8 + 1) n v' cc := by
  induction m using Nat.strong_induction_on with
  | _ m ih =>
    intro hm n v' cc
    have hN : cfg1.N = 64 := N_1
    have hstep := acc5_step V c ⟨m, by omega⟩ n v' cc
    simp only [] at hstep
    rw [hstep]
    unfold S5
    rw [Finset.sum_range_succ]
    by_cases h0 : m % 8 = 0
    · rw [if_pos h0, h0, Finset.sum_range_zero]
    · rw [if_neg h0, ih (m - 1) (by omega) (by omega) n v' cc]
      unfold S5
      rw [show (m - 1) / 8 = m / 8 by omega, show (m - 1) % 8 + 1 = m % 8 by omega]

/-- After position m the degree accumulator holds the row sums over the reduction tiles 0 … m mod 8. -/
theorem acc6_at (m : ℕ) : ∀ (hm : m < 64) (n : Fin 2) (v' : Fin 1024),
    (accAt1 (F := Ideal) V c m).2 (ix2 n v') = S6 (V c main_arg1) (m / 8) (m % 8 + 1) n v' := by
  induction m using Nat.strong_induction_on with
  | _ m ih =>
    intro hm n v'
    have hN : cfg1.N = 64 := N_1
    have hstep := acc6_step V c ⟨m, by omega⟩ n v'
    simp only [] at hstep
    rw [hstep]
    unfold S6
    rw [Finset.sum_range_succ]
    by_cases h0 : m % 8 = 0
    · rw [if_pos h0, h0, Finset.sum_range_zero]
    · rw [if_neg h0, ih (m - 1) (by omega) (by omega) n v']
      unfold S6
      rw [show (m - 1) / 8 = m / 8 by omega, show (m - 1) % 8 + 1 = m % 8 by omega]

/-! ## From the blocks written back to the array -/

/-- What a last reduction tile writes back is its block of the second aggregation of the features the pass was given. -/
theorem flushed2_eq (t : Fin cfg1.N) (hf : (cfg1.win 2).flush t = true) :
    (dat1 (F := Ideal) V c).flushed 2 t
      = ((cfg1.win 2).blk t).view.read (Elt Ideal) (Cert.Spec.convOf (V c main_v0) (V c main_arg1)) := by
  have h7 : t.val % 8 = 7 := (flush1_2 t).mp hf
  have hN : cfg1.N = 64 := N_1
  have ht : t.val < 64 := lt_of_lt_of_eq t.isLt hN
  show (cfg1.win 2).cut (grid1.coords t) ((dat1 (F := Ideal) V c).after 2 t) = _
  rw [after1_2]
  funext j
  obtain ⟨n, v', cc, rfl⟩ : ∃ (n : Fin 2) (v' : Fin 1024) (cc : Fin 16), j = ix3 n v' cc := ⟨j 0, j 1, j 2, eq_ix3 j⟩
  obtain ⟨-, -, -, -, -, -, e0, e1, e2⟩ := idx_facts1 t
  have hs : (t.val / 8) * 1024 + v'.val < 8192 := by have := v'.isLt; omega
  have hemb : ((cfg1.win 2).blk t).view.emb (ix3 n v' cc) = ix3 n (⟨(t.val / 8) * 1024 + v'.val, hs⟩ : Fin 8192) cc := by
    funext a; apply Fin.ext
    match a with
    | ⟨0, _⟩ => show win1_2.index t (0 : Fin 3) * 2 + 1 * n.val = n.val; rw [e0]; omega
    | ⟨1, _⟩ => show win1_2.index t (1 : Fin 3) * 1024 + 1 * v'.val = (t.val / 8) * 1024 + v'.val; rw [e1]; omega
    | ⟨2, _⟩ => show win1_2.index t (2 : Fin 3) * 16 + 1 * cc.val = cc.val; rw [e2]; omega
  show k1_pay5 (accAt1 (F := Ideal) V c t.val).1 (accAt1 (F := Ideal) V c t.val).2 (ix3 n v' cc)
    = Cert.Spec.convOf (V c main_v0) (V c main_arg1) (((cfg1.win 2).blk t).view.emb (ix3 n v' cc))
  rw [hemb, k1_pay5_apply, acc5_at V c t.val ht, acc6_at V c t.val ht, h7]
  show Ideal.div (S5 _ _ (t.val / 8) 8 n v' cc) (S6 _ (t.val / 8) 8 n v') = Ideal.div _ (Cert.Spec.dv _ n ⟨_, hs⟩)
  rw [S5_all (V c main_v0) (V c main_arg1) n ⟨_, hs⟩ (t.val / 8) v' rfl cc, S6_all (V c main_arg1) n ⟨_, hs⟩ (t.val / 8) v' rfl]

/-- An index of the output array is in position t's block iff each coordinate is in the block's range on its axis. -/
theorem mem_blk2 (t : Fin cfg1.N) (i : S2x8192x16.Idx) :
    i ∈ ((cfg1.win 2).blk t).view.set ↔ ∀ a : Fin 3, win1_2.index t a * S2x1024x16.size a ≤ (i a).val ∧ (i a).val < win1_2.index t a * S2x1024x16.size a + S2x1024x16.size a := by
  show i ∈ ((View.whole main_v1).slice (win1_2.rect t)).set ↔ _
  rw [View.set_slice_whole, Rect.mem_set_unit]
  exact Iff.rfl

/-- Every index of the output array is in the block some last reduction tile writes back: row r is in the block of
    position 8·(r div 1024) + 7. -/
theorem cover2 (i : S2x8192x16.Idx) : ∃ t : Fin cfg1.N, (cfg1.win 2).flush t = true ∧ i ∈ ((cfg1.win 2).blk t).view.set := by
  have hi0 : (i 0).val < 2 := (i 0).isLt
  have hi1 : (i 1).val < 8192 := (i 1).isLt
  have hi2 : (i 2).val < 16 := (i 2).isLt
  have hN : cfg1.N = 64 := N_1
  have hlt : 8 * ((i 1).val / 1024) + 7 < cfg1.N := lt_of_lt_of_eq (by omega : 8 * ((i 1).val / 1024) + 7 < 64) hN.symm
  obtain ⟨-, -, -, -, -, -, e0, e1, e2⟩ := idx_facts1 ⟨8 * ((i 1).val / 1024) + 7, hlt⟩
  have e1' : win1_2.index ⟨8 * ((i 1).val / 1024) + 7, hlt⟩ (1 : Fin 3) = (i 1).val / 1024 := by
    rw [e1]; show (8 * ((i 1).val / 1024) + 7) / 8 = (i 1).val / 1024; omega
  refine ⟨⟨8 * ((i 1).val / 1024) + 7, hlt⟩, (flush1_2 _).mpr (by show (8 * ((i 1).val / 1024) + 7) % 8 = 7; omega), ?_⟩
  rw [mem_blk2]
  intro a
  match a with
  | ⟨0, _⟩ => show win1_2.index _ (0 : Fin 3) * 2 ≤ (i 0).val ∧ (i 0).val < win1_2.index _ (0 : Fin 3) * 2 + 2; rw [e0]; omega
  | ⟨1, _⟩ => show win1_2.index _ (1 : Fin 3) * 1024 ≤ (i 1).val ∧ (i 1).val < win1_2.index _ (1 : Fin 3) * 1024 + 1024; rw [e1']; omega
  | ⟨2, _⟩ => show win1_2.index _ (2 : Fin 3) * 16 ≤ (i 2).val ∧ (i 2).val < win1_2.index _ (2 : Fin 3) * 16 + 16; rw [e2]; omega

/-- After the second pass the output array holds the second aggregation of the features it was given and H. -/
theorem conv_final :
    (dat1 (F := Ideal) V c).arrAt 2 cfg1.N = Cert.Spec.convOf (V c main_v0) (V c main_arg1) :=
  (dat1 (F := Ideal) V c).arrAt_eq_of_cover 2 _ (fun t hf => flushed2_eq V c t hf) (fun i => cover2 i)

end Region

end Cert.KernelIdeal.Value1

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.PreFacts.lean ====
/-
  What the precondition says of the two argument arrays.

  The precondition is a conjunction of four "for every index" tests:
    |x| < +∞ at every index of x,  |H| < +∞ at every index of H,
    (Σ_v H n v e) ≠ 0 for every (n, e),  (Σ_e H n v e) ≠ 0 for every (n, v).
  Read back on the extended reals: every entry of x and of H is a real number, and no hyperedge degree
  and no vertex degree is zero. These are exactly the hypotheses under which dividing every entry of H by
  a degree before a contraction agrees with dividing the finished contraction once.
-/
import proofs.«135059_j24292335026751_1_alg».proof.Proof.Gen.Pre_finite_inputs
import proofs.«135059_j24292335026751_1_alg».proof.Proof.Spec
import proofs.«135059_j24292335026751_1_alg».proof.Proof.LibFiniteEReal
import Idealize.ShloMosaic.Lib.ReduceAll
import Idealize.ShloMosaic.PureOps.Ideal.Laws

noncomputable section

namespace Cert.PreFacts

open Idealize.ShloMosaic Idealize.ShloMosaic.ValueIdx Cert.Pre_finite_inputs Cert.Pre_finite_inputs.Gen

/-- The shape with no axes has one index. -/
instance : Subsingleton S_.Idx := ⟨fun a b => funext fun d => d.elim0⟩

/-- Two extended reals that compare "not equal" are different. -/
theorem ne_of_cmp_une (a b : EReal) (h : Ideal.cmp .une a b = 1#1) : a ≠ b := by
  intro e
  subst e
  have : Ideal.cmp .une a a = 0#1 := by
    unfold Ideal.cmp
    rw [decide_eq_false (fun hn : a ≠ a => hn rfl)]; rfl
  rw [this] at h
  exact absurd h (by decide)

/-- The sum of H over its middle axis, started from the zero word, at (n, e): the hyperedge degree. -/
theorem reduceAdd_d1_apply (H : FVec Ideal S2x8192x8192 .f32) (h : S2x8192x8192.ReducesTo [1] S2x8192)
    (hu : 0 < S_.numel) (n : Fin 2) (e : Fin 8192) :
    Host.reduceAdd (F := Ideal) H (constant S_ .f32 0x00000000#32) h hu (ix2 n e) = Cert.Spec.de H n e := by
  simp only [Host.reduceAdd, Ideal.hostReduceAdd_def]
  rw [Ideal.hostReduceAdd_single h (by decide)]
  have hz : (constant (F := Ideal) S_ .f32 0x00000000#32) (Shape.Idx.first hu) = 0 := Ideal.ofBits_zero_f32
  rw [hz, zero_add]
  unfold Cert.Spec.de
  refine Finset.sum_congr rfl fun k _ => ?_
  exact congrArg H (funext fun a => Fin.ext (by match a with | ⟨0, _⟩ => rfl | ⟨1, _⟩ => rfl | ⟨2, _⟩ => rfl))

/-- The sum of H over its last axis, started from the zero word, at (n, v): the vertex degree. -/
theorem reduceAdd_d2_apply (H : FVec Ideal S2x8192x8192 .f32) (h : S2x8192x8192.ReducesTo [2] S2x8192)
    (hu : 0 < S_.numel) (n : Fin 2) (v : Fin 8192) :
    Host.reduceAdd (F := Ideal) H (constant S_ .f32 0x00000000#32) h hu (ix2 n v) = Cert.Spec.dv H n v := by
  simp only [Host.reduceAdd, Ideal.hostReduceAdd_def]
  rw [Ideal.hostReduceAdd_single h (by decide)]
  have hz : (constant (F := Ideal) S_ .f32 0x00000000#32) (Shape.Idx.first hu) = 0 := Ideal.ofBits_zero_f32
  rw [hz, zero_add]
  unfold Cert.Spec.dv
  refine Finset.sum_congr rfl fun k _ => ?_
  exact congrArg H (funext fun a => Fin.ext (by match a with | ⟨0, _⟩ => rfl | ⟨1, _⟩ => rfl | ⟨2, _⟩ => rfl))

variable (X : FVec Ideal S2x8192x16 .f32) (H : FVec Ideal S2x8192x8192 .f32)

/-- The four conjuncts of the precondition, each still a "for every index" test that came out true. -/
theorem conjuncts (hpre : fn (F := Ideal) X H = fun _ => 1#1) :
    ((∀ j : S2x8192x16.Idx, FloatOps.cmpf (F := Ideal) (φ := .f32) .olt (FloatOps.hostAbsf (F := Ideal) (φ := .f32) (X j))
        (FloatOps.ofBits (F := Ideal) .f32 0x7F800000#32) = 1#1)
      ∧ (∀ j : S2x8192x8192.Idx, FloatOps.cmpf (F := Ideal) (φ := .f32) .olt (FloatOps.hostAbsf (F := Ideal) (φ := .f32) (H j))
        (FloatOps.ofBits (F := Ideal) .f32 0x7F800000#32) = 1#1))
      ∧ (∀ (n : Fin 2) (e : Fin 8192), Ideal.cmp .une (Cert.Spec.de H n e) 0 = 1#1)
      ∧ (∀ (n : Fin 2) (v : Fin 8192), Ideal.cmp .une (Cert.Spec.dv H n v) 0 = 1#1) := by
  have h0 := congrFun hpre ix0
  dsimp only [fn, fn_part1] at h0
  simp only [andi, IntOp.andi_eq_one] at h0
  obtain ⟨⟨⟨hx, hh⟩, hde⟩, hdv⟩ := h0
  refine ⟨⟨fun j => ?_, fun j => ?_⟩, fun n e => ?_, fun n v => ?_⟩
  · exact Host.reduce_andi_all _ _ _ _ ix0 hx j
  · exact Host.reduce_andi_all _ _ _ _ ix0 hh j
  · have h1 := Host.reduce_andi_all _ _ _ _ ix0 hde (ix2 n e)
    have h2 : Ideal.cmp .une (Host.reduceAdd (F := Ideal) H (constant S_ .f32 0x00000000#32)
        reducesTo_S2x8192x8192_S2x8192_d1 h_S_ (ix2 n e)) (Ideal.ofBits .f32 0x00000000#32) = 1#1 := h1
    rwa [reduceAdd_d1_apply, Ideal.ofBits_zero_f32] at h2
  · have h1 := Host.reduce_andi_all _ _ _ _ ix0 hdv (ix2 n v)
    have h2 : Ideal.cmp .une (Host.reduceAdd (F := Ideal) H (constant S_ .f32 0x00000000#32)
        reducesTo_S2x8192x8192_S2x8192_d2 h_S_ (ix2 n v)) (Ideal.ofBits .f32 0x00000000#32) = 1#1 := h1
    rwa [reduceAdd_d2_apply, Ideal.ofBits_zero_f32] at h2

/-- Every entry of x is a real number. -/
theorem x_real (hpre : fn (F := Ideal) X H = fun _ => 1#1) (j : S2x8192x16.Idx) : ∃ r : ℝ, X j = (r : EReal) :=
  Cert.Lib.FiniteEReal.real_of_abs_lt (X j) ((conjuncts X H hpre).1.1 j)

/-- Every entry of H is a real number. -/
theorem h_real (hpre : fn (F := Ideal) X H = fun _ => 1#1) (j : S2x8192x8192.Idx) : ∃ r : ℝ, H j = (r : EReal) :=
  Cert.Lib.FiniteEReal.real_of_abs_lt (H j) ((conjuncts X H hpre).1.2 j)

/-- No hyperedge degree is zero. -/
theorem de_ne (hpre : fn (F := Ideal) X H = fun _ => 1#1) (n : Fin 2) (e : Fin 8192) : Cert.Spec.de H n e ≠ 0 :=
  ne_of_cmp_une _ _ ((conjuncts X H hpre).2.1 n e)

/-- No vertex degree is zero. -/
theorem dv_ne (hpre : fn (F := Ideal) X H = fun _ => 1#1) (n : Fin 2) (v : Fin 8192) : Cert.Spec.dv H n v ≠ 0 :=
  ne_of_cmp_une _ _ ((conjuncts X H hpre).2.2 n v)

end Cert.PreFacts

end
-- ==== Proof.LibScaleAcrossSum.lean ====
/-
  Moving a real factor across a finite sum in the extended reals.

  In the extended reals multiplication does not distribute over addition in general: with a = 1, b = −1 and
  s = +∞,  (a + b) · s = 0 · ⊤ = 0  but  a · s + b · s = ⊤ + ⊥ = ⊥. When every summand and the factor are real
  numbers nothing of the kind happens: both sides are the coercion of a real sum. Two lemmas:

  * `coe_sum` — the coercion ℝ → EReal commutes with a finite sum;
  * `sum_mul_scale` — for real xₖ (given as extended reals that are real), real wₖ and a real s,
        (∑ₖ xₖ · wₖ) · s = ∑ₖ xₖ · (wₖ · s):
    scaling a finished contraction is contracting against scaled weights.
-/
import Idealize.ShloMosaic.PureOps.Ideal

namespace Cert.Lib.ScaleAcrossSum

/-- The coercion of the reals into the extended reals commutes with finite sums. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Scaling a finished contraction is contracting against scaled weights, when the activations and the scale
    are real: both sides are the coercion of ∑ₖ xₖ · wₖ · s. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * ((w k : ℝ) : EReal)) * s = ∑ k, x k * (((w k : ℝ) : EReal) * s) := by
  obtain ⟨s', rfl⟩ := hs
  choose x' hx' using hx
  simp only [hx', ← EReal.coe_mul, coe_sum]
  congr 1
  rw [Finset.sum_mul]
  exact Finset.sum_congr rfl fun k _ => by ring

end Cert.Lib.ScaleAcrossSum
-- ==== Proof.Law.lean ====
/-
  Dividing by a degree before a contraction or after it.

  On the extended reals multiplication does not distribute over addition and 0 / 0 is a junk value, so
  "divide every weight by d, then contract" and "contract, then divide by d" differ in general. When the
  weights h_k and the activations x_k are real numbers and d is a NONZERO real they agree: x / d is x · (1/d),
  and a real factor moves across a finite sum of reals,
      Σ_k (h_k / d) · x_k  =  (Σ_k h_k · x_k) / d.
  The hypergraph convolution uses this twice. With a weight matrix h over vertices v and hyperedges e, all of whose
  column sums de(e) = Σ_v h(v,e) and row sums dv(v) = Σ_e h(v,e) are nonzero reals:
      Σ_e (h(v,e) / dv(v)) · ( Σ_v' (h(v',e) / de(e)) · x(v') )
        = ( Σ_e h(v,e) · ( (Σ_v' h(v',e) · x(v')) / de(e) ) ) / dv(v).
  The inner quotient is again a real number, which is what lets the outer step go through.
-/
import Idealize.ShloMosaic.PureOps.Ideal
import proofs.«135059_j24292335026751_1_alg».proof.Proof.LibScaleAcrossSum

noncomputable section

namespace Cert.Law

open Idealize.ShloMosaic Cert.Lib.ScaleAcrossSum

/-- A finite sum of real numbers is a real number. -/
theorem real_sum {ι : Type*} [Fintype ι] (f : ι → EReal) (hf : ∀ k, ∃ r : ℝ, f k = (r : EReal)) :
    ∃ r : ℝ, ∑ k, f k = (r : EReal) := by
  choose f' hf' using hf
  exact ⟨∑ k, f' k, by simp only [hf', coe_sum]⟩

/-- A product of two real numbers is a real number. -/
theorem real_mul (x y : EReal) (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A real number that is not the extended reals' zero is a nonzero real. -/
theorem coe_ne_zero {b : ℝ} (h : (b : EReal) ≠ 0) : b ≠ 0 := fun e => h (by rw [e, EReal.coe_zero])

/-- The quotient of a real number by a nonzero real number is a real number. -/
theorem real_div (x d : EReal) (hx : ∃ r : ℝ, x = (r : EReal)) (hd : ∃ r : ℝ, d = (r : EReal)) (hd0 : d ≠ 0) :
    ∃ r : ℝ, Ideal.div x d = (r : EReal) := by
  obtain ⟨a, rfl⟩ := hx
  obtain ⟨b, rfl⟩ := hd
  exact ⟨a * (1 / b), by rw [Ideal.div_coe (coe_ne_zero hd0), EReal.coe_mul]⟩

/-- Dividing every weight by a nonzero real d and contracting is contracting and dividing once. -/
theorem sum_div_mul {ι : Type*} [Fintype ι] (h x : ι → EReal) (d : EReal)
    (hh : ∀ k, ∃ r : ℝ, h k = (r : EReal)) (hx : ∀ k, ∃ r : ℝ, x k = (r : EReal))
    (hd : ∃ r : ℝ, d = (r : EReal)) (hd0 : d ≠ 0) :
    ∑ k, Ideal.div (h k) d * x k = Ideal.div (∑ k, h k * x k) d := by
  obtain ⟨b, rfl⟩ := hd
  have hb : b ≠ 0 := coe_ne_zero hd0
  choose h' hh' using hh
  choose x' hx' using hx
  simp only [hh', hx', Ideal.div_coe hb, ← EReal.coe_mul, coe_sum]
  refine congrArg _ ?_
  rw [Finset.sum_mul]
  exact Finset.sum_congr rfl fun k _ => by ring

/-- The two normalised contractions of the hypergraph convolution, entries divided first, are the two contractions
    each divided once — for a real weight matrix with nonzero column sums and nonzero row sums and real activations. -/
theorem conv_law {V E : Type*} [Fintype V] [Fintype E] (h : V → E → EReal) (x : V → EReal)
    (hh : ∀ v e, ∃ r : ℝ, h v e = (r : EReal)) (hx : ∀ v, ∃ r : ℝ, x v = (r : EReal))
    (hde : ∀ e, (∑ v, h v e) ≠ 0) (hdv : ∀ v, (∑ e, h v e) ≠ 0) (v : V) :
    ∑ e, Ideal.div (h v e) (∑ e', h v e') * (∑ v', Ideal.div (h v' e) (∑ v'', h v'' e) * x v')
      = Ideal.div (∑ e, h v e * Ideal.div (∑ v', h v' e * x v') (∑ v'', h v'' e)) (∑ e', h v e') := by
  have hde_real : ∀ e, ∃ r : ℝ, (∑ v'', h v'' e) = (r : EReal) := fun e => real_sum _ fun v'' => hh v'' e
  have hdv_real : ∃ r : ℝ, (∑ e', h v e') = (r : EReal) := real_sum _ fun e' => hh v e'
  have inner : ∀ e, (∑ v', Ideal.div (h v' e) (∑ v'', h v'' e) * x v')
      = Ideal.div (∑ v', h v' e * x v') (∑ v'', h v'' e) := fun e =>
    sum_div_mul (fun v' => h v' e) x _ (fun v' => hh v' e) hx (hde_real e) (hde e)
  simp only [inner]
  exact sum_div_mul (fun e => h v e) (fun e => Ideal.div (∑ v', h v' e * x v') (∑ v'', h v'' e)) _
    (fun e => hh v e)
    (fun e => real_div _ _ (real_sum _ fun v' => real_mul _ _ (hh v' e) (hx v')) (hde_real e) (hde e))
    hdv_real (hdv v)

end Cert.Law

end
-- ==== Proof.RefValue.lean ====
/-
  The reference's value is the convolution.

  The reference divides every entry of H by its hyperedge degree and contracts with x over the vertices, then divides
  every entry of H by its vertex degree and contracts with that result over the hyperedges:
      ref n v c = Σ_e (H n v e / dv n v) · ( Σ_v' (H n v' e / de n e) · x n v' c ).
  The convolution as specified contracts first and divides once after each contraction. Under the precondition
  every entry is a real number and no degree is zero, and then the two arrangements are equal: a nonzero real
  divisor moves across a finite sum of reals.

  The steps: each stage of the reference read at coordinates (n, v, e) or (n, e, c) — the degree sums, the two
  broadcasts of each degree, the two quotients, the two contractions —, then the law over the real data.
-/
import proofs.«135059_j24292335026751_1_alg».proof.Proof.Gen.ReferenceIdeal.Read
import proofs.«135059_j24292335026751_1_alg».proof.Proof.Gen.Pre_finite_inputs
import proofs.«135059_j24292335026751_1_alg».proof.Proof.Spec
import proofs.«135059_j24292335026751_1_alg».proof.Proof.PreFacts
import proofs.«135059_j24292335026751_1_alg».proof.Proof.Law

noncomputable section

namespace Cert.RefValue

open Idealize.ShloMosaic Idealize.ShloMosaic.ValueIdx
open Cert.ReferenceIdeal Cert.ReferenceIdeal.Gen Cert.ReferenceIdeal.Read

/-! ## The index maps of the stages, at coordinates -/

/-- Summing over the last axis at (n, v) visits (n, v, k). -/
theorem idx_v0 (n : Fin 2) (v : Fin 8192) (k : Fin 8192) : idx_main_v0 (ix2 n v) k = ix3 n v k :=
  funext fun a => Fin.ext (by match a with | ⟨0, _⟩ => rfl | ⟨1, _⟩ => rfl | ⟨2, _⟩ => rfl)

/-- Summing over the middle axis at (n, e) visits (n, k, e). -/
theorem idx_v1 (n : Fin 2) (e : Fin 8192) (k : Fin 8192) : idx_main_v1 (ix2 n e) k = ix3 n k e :=
  funext fun a => Fin.ext (by match a with | ⟨0, _⟩ => rfl | ⟨1, _⟩ => rfl | ⟨2, _⟩ => rfl)

/-- The hyperedge degree broadcast along the vertices: (n, v, e) reads (n, e). -/
theorem idx_v3_v2 (n : Fin 2) (v : Fin 8192) (e : Fin 8192) : idx_main_v2 (idx_main_v3 (ix3 n v e)) = ix2 n e :=
  funext fun a => Fin.ext (by match a with | ⟨0, _⟩ => rfl | ⟨1, _⟩ => rfl)

/-- The vertex degree broadcast along the hyperedges: (n, v, e) reads (n, v). -/
theorem idx_v6_v5 (n : Fin 2) (v : Fin 8192) (e : Fin 8192) : idx_main_v5 (idx_main_v6 (ix3 n v e)) = ix2 n v :=
  funext fun a => Fin.ext (by match a with | ⟨0, _⟩ => rfl | ⟨1, _⟩ => rfl)

/-- The first contraction at (n, e, c) pairs H at (n, k, e) … -/
theorem lidx_v8 (n : Fin 2) (e : Fin 8192) (c : Fin 16) (k : Fin 8192) : lidx_main_v8 (ix3 n e c) k = ix3 n k e :=
  funext fun a => Fin.ext (by match a with | ⟨0, _⟩ => rfl | ⟨1, _⟩ => rfl | ⟨2, _⟩ => rfl)

/-- … with x at (n, k, c). -/
theorem ridx_v8 (n : Fin 2) (e : Fin 8192) (c : Fin 16) (k : Fin 8192) : ridx_main_v8 (ix3 n e c) k = ix3 n k c :=
  funext fun a => Fin.ext (by match a with | ⟨0, _⟩ => rfl | ⟨1, _⟩ => rfl | ⟨2, _⟩ => rfl)

/-- The second contraction at (n, v, c) pairs H at (n, v, k) … -/
theorem lidx_v9 (n : Fin 2) (v : Fin 8192) (c : Fin 16) (k : Fin 8192) : lidx_main_v9 (ix3 n v c) k = ix3 n v k :=
  funext fun a => Fin.ext (by match a with | ⟨0, _⟩ => rfl | ⟨1, _⟩ => rfl | ⟨2, _⟩ => rfl)

/-- … with the hyperedge features at (n, k, c). -/
theorem ridx_v9 (n : Fin 2) (v : Fin 8192) (c : Fin 16) (k : Fin 8192) : ridx_main_v9 (ix3 n v c) k = ix3 n k c :=
  funext fun a => Fin.ext (by match a with | ⟨0, _⟩ => rfl | ⟨1, _⟩ => rfl | ⟨2, _⟩ => rfl)

/-! ## The stages at coordinates -/

variable (X : (⟨S2x8192x16, .f32⟩ : BufTy).Contents (Elt Ideal)) (H : (⟨S2x8192x8192, .f32⟩ : BufTy).Contents (Elt Ideal))

/-- The zero word is the number zero. -/
theorem zero_word : FloatOps.ofBits (F := Ideal) .f32 0x00000000#32 = (0 : EReal) := Ideal.ofBits_zero_f32

/-- The row sums of H are the vertex degrees. -/
theorem v0_at (n : Fin 2) (v : Fin 8192) : val_main_v0 (F := Ideal) H (ix2 n v) = Cert.Spec.dv H n v := by
  rw [val_main_v0_apply, val_main_cst_apply, zero_word, zero_add]
  simp only [idx_v0]
  rfl

/-- The column sums of H are the hyperedge degrees. -/
theorem v1_at (n : Fin 2) (e : Fin 8192) : val_main_v1 (F := Ideal) H (ix2 n e) = Cert.Spec.de H n e := by
  rw [val_main_v1_apply, val_main_cst_0_apply, zero_word, zero_add]
  simp only [idx_v1]
  rfl

/-- H with every entry divided by its hyperedge degree. -/
theorem v4_at (n : Fin 2) (v : Fin 8192) (e : Fin 8192) :
    val_main_v4 (F := Ideal) H (ix3 n v e) = Ideal.div (H (ix3 n v e)) (Cert.Spec.de H n e) := by
  rw [val_main_v4_apply, Ideal.hostDivf_def, val_main_v3_apply, val_main_v2_apply, idx_v3_v2, v1_at]

/-- H with every entry divided by its vertex degree. -/
theorem v7_at (n : Fin 2) (v : Fin 8192) (e : Fin 8192) :
    val_main_v7 (F := Ideal) H (ix3 n v e) = Ideal.div (H (ix3 n v e)) (Cert.Spec.dv H n v) := by
  rw [val_main_v7_apply, Ideal.hostDivf_def, val_main_v6_apply, val_main_v5_apply, idx_v6_v5, v0_at]

/-- The reference's hyperedge features: the contraction over the vertices of the pre-divided H with x. -/
theorem v8_at (n : Fin 2) (e : Fin 8192) (c : Fin 16) :
    val_main_v8 (F := Ideal) X H (ix3 n e c)
      = ∑ v : Fin 8192, Ideal.div (H (ix3 n v e)) (Cert.Spec.de H n e) * X (ix3 n v c) := by
  rw [val_main_v8_apply]
  simp only [lidx_v8, ridx_v8, v4_at]

/-- The reference's result: the contraction over the hyperedges of the pre-divided H with the hyperedge features. -/
theorem v9_at (n : Fin 2) (v : Fin 8192) (c : Fin 16) :
    val_main_v9 (F := Ideal) X H (ix3 n v c)
      = ∑ e : Fin 8192, Ideal.div (H (ix3 n v e)) (Cert.Spec.dv H n v)
          * ∑ v' : Fin 8192, Ideal.div (H (ix3 n v' e)) (Cert.Spec.de H n e) * X (ix3 n v' c) := by
  rw [val_main_v9_apply]
  simp only [lidx_v9, ridx_v9, v7_at, v8_at]

/-! ## The specification at coordinates -/

theorem edge_at (n : Fin 2) (e : Fin 8192) (c : Fin 16) :
    Cert.Spec.edge X H (ix3 n e c)
      = Ideal.div (∑ v : Fin 8192, H (ix3 n v e) * X (ix3 n v c)) (Cert.Spec.de H n e) := rfl

theorem conv_at (n : Fin 2) (v : Fin 8192) (c : Fin 16) :
    Cert.Spec.conv X H (ix3 n v c)
      = Ideal.div (∑ e : Fin 8192, H (ix3 n v e) * Cert.Spec.edge X H (ix3 n e c)) (Cert.Spec.dv H n v) := rfl

/-! ## The reference is the convolution -/

/-- Under the precondition the reference's last stage is the convolution, index by index. -/
theorem ref_val_is_conv (hpre : Cert.Pre_finite_inputs.fn (F := Ideal) X H = fun _ => 1#1) :
    val_main_v9 (F := Ideal) X H = Cert.Spec.conv X H := by
  funext j
  obtain ⟨n, v, c, rfl⟩ : ∃ (n : Fin 2) (v : Fin 8192) (c : Fin 16), j = ix3 n v c := ⟨j 0, j 1, j 2, eq_ix3 j⟩
  rw [v9_at, conv_at]
  simp only [edge_at]
  exact Cert.Law.conv_law (fun (v : Fin 8192) (e : Fin 8192) => H (ix3 n v e)) (fun v : Fin 8192 => X (ix3 n v c))
    (fun v e => Cert.PreFacts.h_real X H hpre (ix3 n v e))
    (fun v => Cert.PreFacts.x_real X H hpre (ix3 n v c))
    (fun e => Cert.PreFacts.de_ne X H hpre n e)
    (fun v => Cert.PreFacts.dv_ne X H hpre n v) v

/-- The term the reference's run states for its result is the convolution. -/
theorem ref_is_conv (hpre : Cert.Pre_finite_inputs.fn (F := Ideal) X H = fun _ => 1#1) :
    Host.dotGeneral (F := Ideal) (φ₁ := .f32) (φ₂ := .f32) dot_S2x8192x8192_S2x8192x16_S2x8192x16_2_1_1_2_0_0 none (Host.divf (H) (broadcastInDim S2x8192x8192 ![0, 1, 2] bcast_S2x8192x1_S2x8192x8192_0_1_2 (broadcastInDim S2x8192x1 ![0, 1] bcast_S2x8192_S2x8192x1_0_1 (Host.reduceAdd (H) (constant S_ .f32 0x00000000#32) reducesTo_S2x8192x8192_S2x8192_d2 h_S_)))) (Host.dotGeneral (F := Ideal) (φ₁ := .f32) (φ₂ := .f32) dot_S2x8192x8192_S2x8192x16_S2x8192x16_1_1_2_2_0_0 none (Host.divf (H) (broadcastInDim S2x8192x8192 ![0, 1, 2] bcast_S2x1x8192_S2x8192x8192_0_1_2 (broadcastInDim S2x1x8192 ![0, 2] bcast_S2x8192_S2x1x8192_0_2 (Host.reduceAdd (H) (constant S_ .f32 0x00000000#32) reducesTo_S2x8192x8192_S2x8192_d1 h_S_)))) (X))
      = Cert.Spec.conv X H :=
  (val_main_v9_eq (F := Ideal) X H).trans (ref_val_is_conv X H hpre)

end Cert.RefValue

end
-- ==== Proof.lean ====
/-
  A hypergraph convolution — vertex features x : [2, 8192, 16], incidence weights H : [2, 8192, 8192] (vertex × hyperedge) —
  computed by two tiled kernels against its plain reference.

  With the degrees de[n,e] = Σ_v H[n,v,e] and dv[n,v] = Σ_e H[n,v,e], the kernels compute
      edge[n,e,c] = (Σ_v H[n,v,e] · x[n,v,c]) / de[n,e]        (first kernel: 8 × 8 tiles, accumulating over the vertex tiles)
      y[n,v,c]    = (Σ_e H[n,v,e] · edge[n,e,c]) / dv[n,v]     (second kernel: accumulating over the hyperedge tiles)
  while the reference first divides every entry of H by its column degree (resp. row degree) and then contracts:
      edge_ref[n,e,c] = Σ_v (H[n,v,e] / de[n,e]) · x[n,v,c],     y_ref[n,v,c] = Σ_e (H[n,v,e] / dv[n,v]) · edge_ref[n,e,c].
  On the extended reals the two agree where every entry is a real number and no degree is zero (the precondition): then
  every quantity is real and dividing a finite sum of reals by a nonzero real is summing the quotients. Where a degree is zero
  they differ (0/0 is not 0·(1/0) summed), which is why the precondition excludes it — there the reference itself divides by zero.

  The frames: each kernel region is run point by point with its two accumulators tracked through the region's invariant
  (Proof/KBody·, KRegion·, KRun for the program as printed; Proof/KIBody·, KIRegion·, KIRun for its idealization: the same text
  at another instance). The kernel's result as one function of the arguments (Proof/KIPayloads, KIValue0, KIValue1) meets the
  reference's generated run read back operation by operation (Proof/RefValue, over PreFacts and Law) in Proof/Spec's `conv`.
-/
import proofs.«135059_j24292335026751_1_alg».proof.Defs
import proofs.«135059_j24292335026751_1_alg».proof.Proof.Gen.Kernel
import proofs.«135059_j24292335026751_1_alg».proof.Proof.Gen.KernelIdeal
import proofs.«135059_j24292335026751_1_alg».proof.Proof.Gen.ReferenceIdeal
import proofs.«135059_j24292335026751_1_alg».proof.Proof.Gen.Pre_finite_inputs
import proofs.«135059_j24292335026751_1_alg».proof.Proof.Gen.ReferenceIdeal.Run
import proofs.«135059_j24292335026751_1_alg».proof.Proof.KRun
import proofs.«135059_j24292335026751_1_alg».proof.Proof.KIRun
import proofs.«135059_j24292335026751_1_alg».proof.Proof.KIValue0
import proofs.«135059_j24292335026751_1_alg».proof.Proof.KIValue1
import proofs.«135059_j24292335026751_1_alg».proof.Proof.RefValue
import Idealize.ShloMosaic.Adequacy
import Idealize.ShloMosaic.Init

noncomputable section

namespace Cert.Proof

open Idealize.ShloMosaic Idealize.ShloMosaic.TcCoe Idealize.SL.Sem

/-- The program as printed runs and leaves its arguments as launched: its run with the result dropped. -/
theorem frame_k : Cert.frame_Kernel := fun m ρ _ =>
  (θ_run (Cert.Kernel.defs (F := Bits)) _ _).mono (fun _ h c => ⟨(h c).2.1, (h c).2.2⟩) (Cert.Kernel.Frame.run_main (F := Bits) m ρ)

/-- The same for its idealization. -/
theorem frame_ki : Cert.frame_KernelIdeal := fun m ρ _ =>
  (θ_run (Cert.KernelIdeal.defs (F := Ideal)) _ _).mono (fun _ h c => ⟨(h c).2.1, (h c).2.2⟩) (Cert.KernelIdeal.Frame.run_main (F := Ideal) m ρ)

/-- The reference is host operations only: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result array, as one function of the launch contents of the two arguments: the second region's
    final array is the second aggregation of what it found in main_v0, which is the first region's final array, the hyperedge
    features of the arguments (neither region writes an argument). No hypothesis on the values: sums in the extended reals
    reassociate freely. -/
theorem kernel_is_conv (m : (ℓ : Loc Cert.KernelIdeal.nD Cert.KernelIdeal.τ Cert.KernelIdeal.sig) → Buf (Elt Ideal) ℓ) (c : Dev Cert.KernelIdeal.nD) :
    (Cert.KernelIdeal.Frame.dat1 (F := Ideal) (Cert.KernelIdeal.Frame.VB m) c).arrAt 2 Cert.KernelIdeal.cfg1.N
      = Cert.Spec.conv (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Value1.conv_final (Cert.KernelIdeal.Frame.VB m) c, Cert.KernelIdeal.Frame.VB_main_v0, Cert.KernelIdeal.Frame.VB_main_arg1,
    Cert.KernelIdeal.Value0.edge_final (Cert.KernelIdeal.Frame.VA m) c, Cert.Spec.conv_eq]

/-- At the ideal instance both programs end with the convolution of the arguments: the kernel by its two regions' runs
    (kernel_is_conv), the reference by its generated run read back, under the precondition (real entries, no zero degree). -/
theorem algebraic : Cert.algebraic_KernelIdeal_ReferenceIdeal := by
  intro m ρ m' ρ' hpre hagree
  refine ⟨fun c => Cert.Spec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono (fun _ h c => ⟨(h c).1.trans (kernel_is_conv m c), (h c).2.1, (h c).2.2⟩)
      (Cert.KernelIdeal.Frame.run_main (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    rw [(hagree c).1, (hagree c).2]
    exact Cert.RefValue.ref_is_conv _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
